-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_arg6 : FVec F S128x128 .f32) (main_arg7 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S50000 : Shape := ⟨1, ![50000]⟩
abbrev S850000 : Shape := ⟨1, ![850000]⟩
abbrev S850000x1 : Shape := ⟨2, ![850000, 1]⟩
abbrev S850000x256 : Shape := ⟨2, ![850000, 256]⟩
abbrev S1x128 : Shape := ⟨2, ![1, 128]⟩
abbrev S850000x128 : Shape := ⟨2, ![850000, 128]⟩

abbrev nBuf : Space → Nat
  | .hbm => 128
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S1x256, .f32⟩
  | .hbm, ⟨14, _⟩ => ⟨S50000x256, .f32⟩
  | .hbm, ⟨15, _⟩ => ⟨S50000, .i32⟩
  | .hbm, ⟨16, _⟩ => ⟨S850000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x256, .f32⟩
  | .hbm, ⟨60, _⟩ => ⟨S850000x1, .f32⟩
  | .hbm, ⟨61, _⟩ => ⟨S850000x256, .f32⟩
  | .hbm, ⟨62, _⟩ => ⟨S850000x256, .f32⟩
  | .hbm, ⟨63, _⟩ => ⟨S_, .f32⟩
  | .hbm, ⟨64, _⟩ => ⟨S50000x256, .f32⟩
  | .hbm, ⟨65, _⟩ => ⟨S850000x1, .i32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S_, .f32⟩
  | .hbm, ⟨70, _⟩ => ⟨S1x128, .f32⟩
  | .hbm, ⟨71, _⟩ => ⟨S50000x128, .f32⟩
  | .hbm, ⟨72, _⟩ => ⟨S50000, .i32⟩
  | .hbm, ⟨73, _⟩ => ⟨S850000, .i32⟩
  | .hbm, ⟨74, _⟩ => ⟨S850000, .i32⟩
  | .hbm, ⟨75, _⟩ => ⟨S_, .f32⟩
  | .hbm, ⟨76, _⟩ => ⟨S850000, .f32⟩
  | .hbm, ⟨77, _⟩ => ⟨S_, .f32⟩
  | .hbm, ⟨78, _⟩ => ⟨S50000, .f32⟩
  | .hbm, ⟨79, _⟩ => ⟨S850000x1, .i32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .i1⟩
  | .hbm, ⟨84, _⟩ => ⟨S50000, .f32⟩
  | .hbm, ⟨85, _⟩ => ⟨S_, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000, .f32⟩
  | .hbm, ⟨107, _⟩ => ⟨S850000, .f32⟩
  | .hbm, ⟨108, _⟩ => ⟨S_, .i32⟩
  | .hbm, ⟨109, _⟩ => ⟨S850000, .i32⟩
  | .hbm, ⟨110, _⟩ => ⟨S850000, .i1⟩
  | .hbm, ⟨111, _⟩ => ⟨S_, .i32⟩
  | .hbm, ⟨112, _⟩ => ⟨S850000, .i32⟩
  | .hbm, ⟨113, _⟩ => ⟨S850000, .i32⟩
  | .hbm, ⟨114, _⟩ => ⟨S850000, .i32⟩
  | .hbm, ⟨115, _⟩ => ⟨S850000x1, .i32⟩
  | .hbm, ⟨116, _⟩ => ⟨S850000x128, .f32⟩
  | .hbm, ⟨117, _⟩ => ⟨S850000x1, .f32⟩
  | .hbm, ⟨118, _⟩ => ⟨S850000x128, .f32⟩
  | .hbm, ⟨119, _⟩ => ⟨S850000x128, .f32⟩
  | .hbm, ⟨120, _⟩ => ⟨S_, .f32⟩
  | .hbm, ⟨121, _⟩ => ⟨S50000x128, .f32⟩
  | .hbm, ⟨122, _⟩ => ⟨S850000x1, .i32⟩
  | .hbm, ⟨123, _⟩ => ⟨S50000x128, .f32⟩
  | .hbm, ⟨124, _⟩ => ⟨S1x128, .f32⟩
  | .hbm, ⟨125, _⟩ => ⟨S50000x128, .f32⟩
  | .hbm, ⟨126, _⟩ => ⟨S1x128, .f32⟩
  | .hbm, ⟨127, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_call1_v0 : Ref sig .tc := ⟨.hbm, 86, rfl⟩
abbrev main_call1_v1 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_c_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_17 : Ref sig .tc := ⟨.hbm, 98, rfl⟩
abbrev main_v67 : Ref sig .tc := ⟨.hbm, 99, rfl⟩
abbrev main_v68 : Ref sig .tc := ⟨.hbm, 100, rfl⟩
abbrev main_c_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_19 : Ref sig .tc := ⟨.hbm, 108, rfl⟩
abbrev main_v75 : Ref sig .tc := ⟨.hbm, 109, rfl⟩
abbrev main_v76 : Ref sig .tc := ⟨.hbm, 110, rfl⟩
abbrev main_c_20 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_21 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S1x256 : S_.BroadcastsInDim S1x256 (![] : Fin 0 → Fin S1x256.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  bcast_S_S1x128 : S_.BroadcastsInDim S1x128 (![] : Fin 0 → Fin S1x128.rank)
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  dot_S2000x128_S128x256_S2000x256_1_0_0_1_n_n_wf : DotDims.WF S2000x128 S128x256 S2000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v87) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v89) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v90) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v91) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x128, .f32⟩
  | 5 => ⟨S128, .f32⟩
  | 6 => ⟨S128x128, .f32⟩
  | 7 => ⟨S128, .f32⟩
  | 8 => ⟨S1x800000, .i32⟩
  | 9 => ⟨S800000, .i32⟩
  | 10 => ⟨S1x800000, .i32⟩
  | 11 => ⟨S800000, .i32⟩
  | 12 => ⟨S50000x256, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x256, .f32⟩
  | 58 => ⟨S850000x1, .f32⟩
  | 59 => ⟨S850000x256, .f32⟩
  | 60 => ⟨S850000x256, .f32⟩
  | 61 => ⟨S_, .f32⟩
  | 62 => ⟨S50000x256, .f32⟩
  | 63 => ⟨S850000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S50000x128, .f32⟩
  | 72 => ⟨S50000, .i32⟩
  | 73 => ⟨S850000, .i32⟩
  | 74 => ⟨S850000, .i32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x128, .f32⟩
  | 117 => ⟨S850000x1, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run, with the result named.

  The program is five block-wise regions among stretches of host operations.  Every weakly fair execution terminates
  without a fault, and when it has, each unscoped buffer holds what the last segment boundary says it holds: the fold
  of the host stretches and of the regions' write-backs over the launch memory.  The generated frame reads only the
  eight argument arrays out of that final state; the value needs one more buffer, the result of the last region, read
  the same way.  The arguments are read back to their launch contents as the frame does.
-/
import proofs.«160874_j25048249270385_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run : θ_run defs (onTc (τ := τ) (main (F := F))) ⟨m, fun _ => 0, ρ⟩ (fun r => ∀ c : Dev nD,
      r.2.mem ((c.tc : Thread nD τ).loc main_v91) = W14 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v91 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.KernelIdeal.Run

end
-- ==== Proof.Carry.lean ====
/-
  Buffers that ride through the idealized kernel's segments unchanged, and the small rows the host prepares.

  The program is fourteen segments: host stretches and five block-wise regions, and the generated frame names what every
  unscoped buffer holds at each boundary as a fold over the launch memory.  A host stretch changes only the buffers its
  operations write; a region changes only its own arrays.  So an argument array holds its launch contents at every
  boundary, the two halves of the edge list cut out by the first stretch last until the second mixing reads them
  again, and a region's output lasts across a stretch that does not write it.  The rows: a zero bias for the two
  products that have none, and a bias vector reshaped to one row; read at (0, g) they are zero and the vector's entry g.
-/
import proofs.«160874_j25048249270385_1_alg».proof.Proof.Gen.KernelIdeal.Frame
import Idealize.ShloMosaic.Lib.StableHlo.Run
import Idealize.ShloMosaic.PureOps.Ideal.Laws
import Idealize.ShloMosaic.Lib.Pipeline.Value
import Idealize.ShloMosaic.Lib.ValueIdx

set_option maxRecDepth 16384

noncomputable section

namespace Cert.KernelIdeal.Walk

open Cert.KernelIdeal Cert.KernelIdeal.Gen
open Idealize.ShloMosaic Idealize.ShloMosaic.TcCoe Idealize.ShloMosaic.ValueIdx Idealize.SL.Sem Idealize.ShloMosaic.StableHlo

/-! ## The rows the host prepares for the regions -/

/-- The one-row zero bias of the first product. -/
abbrev zeroRow256 : FVec Ideal S1x256 .f32 := broadcastInDim S1x256 ![] bcast_S_S1x256 (constant (F := Ideal) S_ .f32 0x00000000#32)
/-- The one-row zero bias of the second product. -/
abbrev zeroRow128 : FVec Ideal S1x128 .f32 := broadcastInDim S1x128 ![] bcast_S_S1x128 (constant (F := Ideal) S_ .f32 0x00000000#32)
/-- A bias vector of 256 entries reshaped to one row. -/
abbrev biasRow256 (v : FVec Ideal S256 .f32) : FVec Ideal S1x256 .f32 := shapeCast S1x256 v shapeCasts_S256_S1x256
/-- A bias vector of 128 entries reshaped to one row. -/
abbrev biasRow128 (v : FVec Ideal S128 .f32) : FVec Ideal S1x128 .f32 := shapeCast S1x128 v shapeCasts_S128_S1x128

theorem zeroRow256_apply (g : Fin 256) : zeroRow256 (ix2 (0 : Fin 1) g) = 0 := by
  show Ideal.ofBits .f32 0x00000000#32 = 0
  exact Ideal.ofBits_zero_f32

theorem zeroRow128_apply (g : Fin 128) : zeroRow128 (ix2 (0 : Fin 1) g) = 0 := by
  show Ideal.ofBits .f32 0x00000000#32 = 0
  exact Ideal.ofBits_zero_f32

theorem biasRow256_apply (v : FVec Ideal S256 .f32) (g : Fin 256) : biasRow256 v (ix2 (0 : Fin 1) g) = v (ix1 g) :=
  shapeCast_apply v shapeCasts_S256_S1x256 (ix2 (0 : Fin 1) g) (ix1 g) (by
    rw [Shape.rowMajor_val_two, Shape.rowMajor_val_one]; show g.val = 0 * 256 + g.val; omega)

theorem biasRow128_apply (v : FVec Ideal S128 .f32) (g : Fin 128) : biasRow128 v (ix2 (0 : Fin 1) g) = v (ix1 g) :=
  shapeCast_apply v shapeCasts_S128_S1x128 (ix2 (0 : Fin 1) g) (ix1 g) (by
    rw [Shape.rowMajor_val_two, Shape.rowMajor_val_one]; show g.val = 0 * 128 + g.val; omega)

/-- The source ends of the edges: row 0 of the edge list as a vector. -/
abbrev srcOf (e : IVec S2x800000 32) : IVec S800000 32 :=
  shapeCast _ (extractStridedSlice S1x800000 ![0, 0] e slices_S2x800000_S1x800000_0_0) shapeCasts_S1x800000_S800000
/-- The destination ends of the edges: row 1 of the edge list as a vector. -/
abbrev dstOf (e : IVec S2x800000 32) : IVec S800000 32 :=
  shapeCast _ (extractStridedSlice S1x800000 ![1, 0] e slices_S2x800000_S1x800000_1_0) shapeCasts_S1x800000_S800000

/-! ## The mixing along the edges, piece by piece

  Every node gets a loop to itself: the node numbers 0 … 49999 are appended to both ends of the edge list.  A node's
  degree is the number of edges (loops included) that end in it, a scatter-add of ones; its weight is the inverse
  square root of the degree where the degree is positive, and zero elsewhere.  An index is read with negative values
  wrapped around by the number of nodes, as array indexing does.  An edge's coefficient is the product of the weights
  of its two ends.  The mixing gathers, for every edge, the feature row of the edge's source, scales it by the edge's
  coefficient, and scatter-adds the result into the row of the edge's destination. -/

/-- An end of every edge, followed by the node numbers 0 … 49999 (the loops). -/
def withLoops (v : IVec S800000 32) : IVec S850000 32 :=
  concatenate S850000 0 [⟨S800000, v⟩, ⟨S50000, iotaInDim S50000 32 0⟩] concatenates_S800000_S50000_S850000_d0

/-- The source of every edge, loops included. -/
def idxS (e : IVec S2x800000 32) : IVec S850000 32 := withLoops (srcOf e)
/-- The destination of every edge, loops included. -/
def idxD (e : IVec S2x800000 32) : IVec S850000 32 := withLoops (dstOf e)

/-- A node's degree: the number of edges (loops included) whose destination it is. -/
def degOf (iD : IVec S850000 32) : FVec Ideal S50000 .f32 :=
  Host.scatterAdd (F := Ideal) (φ := .f32) scatter_S50000_S850000x1_S850000_n_0_0_1
    (broadcastInDim S50000 ![] bcast_S_S50000 (constant (F := Ideal) S_ .f32 0x00000000#32))
    (broadcastInDim S850000x1 ![0] bcast_S850000_S850000x1_0 iD)
    (broadcastInDim S850000 ![] bcast_S_S850000 (constant (F := Ideal) S_ .f32 0x3F800000#32))

/-- A node's weight: the inverse square root of its degree where that is positive, and the given scalar (zero in the
    program) elsewhere. -/
def weightOf (isPos : IVec S50000 1) (rs : FVec Ideal S50000 .f32) (z : FVec Ideal S_ .f32) : FVec Ideal S50000 .f32 :=
  select isPos rs (broadcastInDim S50000 ![] bcast_S_S50000 (id z))

/-- The weights from the destinations. -/
def dinvOf (iD : IVec S850000 32) : FVec Ideal S50000 .f32 :=
  weightOf (cmpf (F := Ideal) .ogt (degOf iD) (broadcastInDim S50000 ![] bcast_S_S50000 (constant (F := Ideal) S_ .f32 0x00000000#32)))
    (Host.rsqrt (F := Ideal) (degOf iD)) (constant (F := Ideal) S_ .f32 0x00000000#32)

/-- An index vector with negative entries wrapped around by the number of nodes. -/
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- An edge's coefficient: the product of the weights of its two ends. -/
def coefOf (iS iD : IVec S850000 32) (w : FVec Ideal S50000 .f32) : FVec Ideal S850000 .f32 :=
  mulf (F := Ideal) (φ := .f32)
    (Host.gather gather_S50000_S850000x1_S850000_n_0_n_n_0_1_1 w
      (broadcastInDim S850000x1 ![0] bcast_S850000_S850000x1_0 (wrap iS)))
    (Host.gather gather_S50000_S850000x1_S850000_n_0_n_n_0_1_1 w
      (broadcastInDim S850000x1 ![0] bcast_S850000_S850000x1_0 (wrap iD)))

/-- Gather along the sources, scale by the coefficients, scatter-add along the destinations: 256 features. -/
def mixWith256 (iS iD : IVec S850000 32) (w : FVec Ideal S50000 .f32) (h : FVec Ideal S50000x256 .f32) :
    FVec Ideal S50000x256 .f32 :=
  Host.scatterAdd (F := Ideal) (φ := .f32) scatter_S50000x256_S850000x1_S850000x256_1_0_0_1
    (broadcastInDim S50000x256 ![] bcast_S_S50000x256 (constant (F := Ideal) S_ .f32 0x00000000#32))
    (broadcastInDim S850000x1 ![0] bcast_S850000_S850000x1_0 iD)
    (mulf (F := Ideal) (φ := .f32)
      (Host.gather gather_S50000x256_S850000x1_S850000x256_1_0_n_n_0_1_1256 h
        (broadcastInDim S850000x1 ![0] bcast_S850000_S850000x1_0 (wrap iS)))
      (broadcastInDim S850000x256 ![0, 1] bcast_S850000x1_S850000x256_0_1
        (broadcastInDim S850000x1 ![0] bcast_S850000_S850000x1_0 (coefOf iS iD w))))

/-- The same with 128 features. -/
def mixWith128 (iS iD : IVec S850000 32) (w : FVec Ideal S50000 .f32) (h : FVec Ideal S50000x128 .f32) :
    FVec Ideal S50000x128 .f32 :=
  Host.scatterAdd (F := Ideal) (φ := .f32) scatter_S50000x128_S850000x1_S850000x128_1_0_0_1
    (broadcastInDim S50000x128 ![] bcast_S_S50000x128 (constant (F := Ideal) S_ .f32 0x00000000#32))
    (broadcastInDim S850000x1 ![0] bcast_S850000_S850000x1_0 iD)
    (mulf (F := Ideal) (φ := .f32)
      (Host.gather gather_S50000x128_S850000x1_S850000x128_1_0_n_n_0_1_1128 h
        (broadcastInDim S850000x1 ![0] bcast_S850000_S850000x1_0 (wrap iS)))
      (broadcastInDim S850000x128 ![0, 1] bcast_S850000x1_S850000x128_0_1
        (broadcastInDim S850000x1 ![0] bcast_S850000_S850000x1_0 (coefOf iS iD w))))

/-- The first layer's mixing as a function of the edge list and the features. -/
def mixK256 (e : IVec S2x800000 32) (h : FVec Ideal S50000x256 .f32) : FVec Ideal S50000x256 .f32 :=
  mixWith256 (idxS e) (idxD e) (dinvOf (idxD e)) h

/-- The second layer's mixing as a function of the edge list and the features. -/
def mixK128 (e : IVec S2x800000 32) (h : FVec Ideal S50000x128 .f32) : FVec Ideal S50000x128 .f32 :=
  mixWith128 (idxS e) (idxD e) (dinvOf (idxD e)) h

variable (m : (ℓ : Loc nD τ sig) → Buf (Elt Ideal) ℓ) (ρ : Dev nD → PrngReg) (c : Dev nD)

/-- A host stretch leaves a buffer that none of its operations writes as it was. -/
macro "host_keeps" : tactic => `(tactic| exact StableHlo.after_of_forall_not_mem _ _ (List.forall_iff_forall_mem.mp (by
      simp only [hostOps0, hostOps1, hostOps1_1, hostOps1_2, hostOps2, hostOps3, hostOps3_1, hostOps3_2, hostOps4,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## Buffers carried across boundaries -/

/-- The node features when region 0 is entered. -/
theorem x0_at1 : W1 m ρ c (Proc.devRef .tc main_arg0) = m ((c : Thread nD τ).loc main_arg0) :=
  calc W1 m ρ c (Proc.devRef .tc main_arg0)
    _ = W0 m ρ c (Proc.devRef .tc main_arg0) := by host_keeps
    _ = m ((c : Thread nD τ).loc main_arg0) := rfl

/-- The first weight matrix when region 0 is entered. -/
theorem x2_at1 : W1 m ρ c (Proc.devRef .tc main_arg2) = m ((c : Thread nD τ).loc main_arg2) :=
  calc W1 m ρ c (Proc.devRef .tc main_arg2)
    _ = W0 m ρ c (Proc.devRef .tc main_arg2) := by host_keeps
    _ = m ((c : Thread nD τ).loc main_arg2) := rfl

/-- The first bias vector when the first mixing starts. -/
theorem x3_at2 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by host_keeps
    _ = m ((c : Thread nD τ).loc main_arg3) := rfl

/-- The second weight matrix when region 2 is entered. -/
theorem x4_at7 : W7 m ρ c (Proc.devRef .tc main_arg4) = m ((c : Thread nD τ).loc main_arg4) :=
  calc W7 m ρ c (Proc.devRef .tc main_arg4)
    _ = W6 m ρ c (Proc.devRef .tc main_arg4) := by host_keeps
    _ = W5 m ρ c (Proc.devRef .tc main_arg4) := W6_of_ne m ρ c main_arg4 (by decide)
    _ = W4 m ρ c (Proc.devRef .tc main_arg4) := by host_keeps
    _ = W3 m ρ c (Proc.devRef .tc main_arg4) := by host_keeps
    _ = W2 m ρ c (Proc.devRef .tc main_arg4) := by host_keeps
    _ = W1 m ρ c (Proc.devRef .tc main_arg4) := W2_of_ne m ρ c main_arg4 (by decide)
    _ = W0 m ρ c (Proc.devRef .tc main_arg4) := by host_keeps
    _ = m ((c : Thread nD τ).loc main_arg4) := rfl

/-- The second bias vector when the second mixing starts. -/
theorem x5_at8 : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := by host_keeps
    _ = W5 m ρ c (Proc.devRef .tc main_arg5) := W6_of_ne m ρ c main_arg5 (by decide)
    _ = W4 m ρ c (Proc.devRef .tc main_arg5) := by host_keeps
    _ = W3 m ρ c (Proc.devRef .tc main_arg5) := by host_keeps
    _ = W2 m ρ c (Proc.devRef .tc main_arg5) := by host_keeps
    _ = W1 m ρ c (Proc.devRef .tc main_arg5) := W2_of_ne m ρ c main_arg5 (by decide)
    _ = W0 m ρ c (Proc.devRef .tc main_arg5) := by host_keeps
    _ = m ((c : Thread nD τ).loc main_arg5) := rfl

/-- The last bias vector after region 3. -/
theorem x7_at12 : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := by host_keeps
    _ = W9 m ρ c (Proc.devRef .tc main_arg7) := by host_keeps
    _ = W8 m ρ c (Proc.devRef .tc main_arg7) := by host_keeps
    _ = W7 m ρ c (Proc.devRef .tc main_arg7) := W8_of_ne m ρ c main_arg7 (by decide)
    _ = W6 m ρ c (Proc.devRef .tc main_arg7) := by host_keeps
    _ = W5 m ρ c (Proc.devRef .tc main_arg7) := W6_of_ne m ρ c main_arg7 (by decide)
    _ = W4 m ρ c (Proc.devRef .tc main_arg7) := by host_keeps
    _ = W3 m ρ c (Proc.devRef .tc main_arg7) := by host_keeps
    _ = W2 m ρ c (Proc.devRef .tc main_arg7) := by host_keeps
    _ = W1 m ρ c (Proc.devRef .tc main_arg7) := W2_of_ne m ρ c main_arg7 (by decide)
    _ = W0 m ρ c (Proc.devRef .tc main_arg7) := by host_keeps
    _ = m ((c : Thread nD τ).loc main_arg7) := rfl

/-- The last weight matrix when region 4 is entered. -/
theorem x6_at13 : W13 m ρ c (Proc.devRef .tc main_arg6) = m ((c : Thread nD τ).loc main_arg6) :=
  calc W13 m ρ c (Proc.devRef .tc main_arg6)
    _ = W12 m ρ c (Proc.devRef .tc main_arg6) := by host_keeps
    _ = W11 m ρ c (Proc.devRef .tc main_arg6) := W12_of_ne m ρ c main_arg6 (by decide)
    _ = W10 m ρ c (Proc.devRef .tc main_arg6) := by host_keeps
    _ = W9 m ρ c (Proc.devRef .tc main_arg6) := by host_keeps
    _ = W8 m ρ c (Proc.devRef .tc main_arg6) := by host_keeps
    _ = W7 m ρ c (Proc.devRef .tc main_arg6) := W8_of_ne m ρ c main_arg6 (by decide)
    _ = W6 m ρ c (Proc.devRef .tc main_arg6) := by host_keeps
    _ = W5 m ρ c (Proc.devRef .tc main_arg6) := W6_of_ne m ρ c main_arg6 (by decide)
    _ = W4 m ρ c (Proc.devRef .tc main_arg6) := by host_keeps
    _ = W3 m ρ c (Proc.devRef .tc main_arg6) := by host_keeps
    _ = W2 m ρ c (Proc.devRef .tc main_arg6) := by host_keeps
    _ = W1 m ρ c (Proc.devRef .tc main_arg6) := W2_of_ne m ρ c main_arg6 (by decide)
    _ = W0 m ρ c (Proc.devRef .tc main_arg6) := by host_keeps
    _ = m ((c : Thread nD τ).loc main_arg6) := rfl

/-- The edges' source ends are not touched by region 0. -/
theorem src_2to1 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- The edges' destination ends are not touched by region 0. -/
theorem dst_2to1 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- The edges' source ends last from the first host stretch to the second mixing. -/
theorem src_8to1 : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by host_keeps
    _ = W5 m ρ c (Proc.devRef .tc main_v1) := W6_of_ne m ρ c main_v1 (by decide)
    _ = W4 m ρ c (Proc.devRef .tc main_v1) := by host_keeps
    _ = W3 m ρ c (Proc.devRef .tc main_v1) := by host_keeps
    _ = W2 m ρ c (Proc.devRef .tc main_v1) := by host_keeps
    _ = W1 m ρ c (Proc.devRef .tc main_v1) := W2_of_ne m ρ c main_v1 (by decide)

/-- The edges' destination ends last from the first host stretch to the second mixing. -/
theorem dst_8to1 : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_keeps
    _ = W5 m ρ c (Proc.devRef .tc main_v3) := W6_of_ne m ρ c main_v3 (by decide)
    _ = W4 m ρ c (Proc.devRef .tc main_v3) := by host_keeps
    _ = W3 m ρ c (Proc.devRef .tc main_v3) := by host_keeps
    _ = W2 m ρ c (Proc.devRef .tc main_v3) := by host_keeps
    _ = W1 m ρ c (Proc.devRef .tc main_v3) := W2_of_ne m ρ c main_v3 (by decide)

/-- The clipped first layer is not touched by the stretch before region 2. -/
theorem relu_7to6 : W7 m ρ c (Proc.devRef .tc main_v46) = W6 m ρ c (Proc.devRef .tc main_v46) :=
  calc W7 m ρ c (Proc.devRef .tc main_v46)
    _ = W6 m ρ c (Proc.devRef .tc main_v46) := by host_keeps

/-- The second layer's output is not touched by the stretch before region 4. -/
theorem layer2_13to12 : W13 m ρ c (Proc.devRef .tc main_v89) = W12 m ρ c (Proc.devRef .tc main_v89) :=
  calc W13 m ρ c (Proc.devRef .tc main_v89)
    _ = W12 m ρ c (Proc.devRef .tc main_v89) := by host_keeps

/-- The first product is not touched by the two stretches that compute the weights. -/
theorem feat1_4to2 : W4 m ρ c (Proc.devRef .tc main_v5) = W2 m ρ c (Proc.devRef .tc main_v5) :=
  calc W4 m ρ c (Proc.devRef .tc main_v5)
    _ = W3 m ρ c (Proc.devRef .tc main_v5) := by host_keeps
    _ = W2 m ρ c (Proc.devRef .tc main_v5) := by host_keeps

/-- The first bias vector when the first mixing's last stretch starts. -/
theorem x3_at4 : W4 m ρ c (Proc.devRef .tc main_arg3) = m ((c : Thread nD τ).loc main_arg3) :=
  calc W4 m ρ c (Proc.devRef .tc main_arg3)
    _ = W3 m ρ c (Proc.devRef .tc main_arg3) := by host_keeps
    _ = W2 m ρ c (Proc.devRef .tc main_arg3) := by host_keeps
    _ = W1 m ρ c (Proc.devRef .tc main_arg3) := W2_of_ne m ρ c main_arg3 (by decide)
    _ = W0 m ρ c (Proc.devRef .tc main_arg3) := by host_keeps
    _ = m ((c : Thread nD τ).loc main_arg3) := rfl

/-- The second product is not touched by the two stretches that compute the weights. -/
theorem feat2_10to8 : W10 m ρ c (Proc.devRef .tc main_v48) = W8 m ρ c (Proc.devRef .tc main_v48) :=
  calc W10 m ρ c (Proc.devRef .tc main_v48)
    _ = W9 m ρ c (Proc.devRef .tc main_v48) := by host_keeps
    _ = W8 m ρ c (Proc.devRef .tc main_v48) := by host_keeps

/-- The second bias vector when the second mixing's last stretch starts. -/
theorem x5_at10 : W10 m ρ c (Proc.devRef .tc main_arg5) = m ((c : Thread nD τ).loc main_arg5) :=
  calc W10 m ρ c (Proc.devRef .tc main_arg5)
    _ = W9 m ρ c (Proc.devRef .tc main_arg5) := by host_keeps
    _ = W8 m ρ c (Proc.devRef .tc main_arg5) := by host_keeps
    _ = W7 m ρ c (Proc.devRef .tc main_arg5) := W8_of_ne m ρ c main_arg5 (by decide)
    _ = W6 m ρ c (Proc.devRef .tc main_arg5) := by host_keeps
    _ = W5 m ρ c (Proc.devRef .tc main_arg5) := W6_of_ne m ρ c main_arg5 (by decide)
    _ = W4 m ρ c (Proc.devRef .tc main_arg5) := by host_keeps
    _ = W3 m ρ c (Proc.devRef .tc main_arg5) := by host_keeps
    _ = W2 m ρ c (Proc.devRef .tc main_arg5) := by host_keeps
    _ = W1 m ρ c (Proc.devRef .tc main_arg5) := W2_of_ne m ρ c main_arg5 (by decide)
    _ = W0 m ρ c (Proc.devRef .tc main_arg5) := by host_keeps
    _ = m ((c : Thread nD τ).loc main_arg5) := rfl

/-- The sources with loops are not touched by the selection of the weights (first mixing). -/
theorem idxS_4to3 : W4 m ρ c (Proc.devRef .tc main_v7) = W3 m ρ c (Proc.devRef .tc main_v7) :=
  calc W4 m ρ c (Proc.devRef .tc main_v7)
    _ = W3 m ρ c (Proc.devRef .tc main_v7) := by host_keeps

/-- The destinations with loops are not touched by the selection of the weights (first mixing). -/
theorem idxD_4to3 : W4 m ρ c (Proc.devRef .tc main_v8) = W3 m ρ c (Proc.devRef .tc main_v8) :=
  calc W4 m ρ c (Proc.devRef .tc main_v8)
    _ = W3 m ρ c (Proc.devRef .tc main_v8) := by host_keeps

/-- The sources with loops are not touched by the selection of the weights (second mixing). -/
theorem idxS_10to9 : W10 m ρ c (Proc.devRef .tc main_v50) = W9 m ρ c (Proc.devRef .tc main_v50) :=
  calc W10 m ρ c (Proc.devRef .tc main_v50)
    _ = W9 m ρ c (Proc.devRef .tc main_v50) := by host_keeps

/-- The destinations with loops are not touched by the selection of the weights (second mixing). -/
theorem idxD_10to9 : W10 m ρ c (Proc.devRef .tc main_v51) = W9 m ρ c (Proc.devRef .tc main_v51) :=
  calc W10 m ρ c (Proc.devRef .tc main_v51)
    _ = W9 m ρ c (Proc.devRef .tc main_v51) := by host_keeps

end Cert.KernelIdeal.Walk

end
-- ==== Proof.Stretches.lean ====
/-
  The host stretches of the two mixings, one at a time, from any contents.

  Each mixing is three stretches of host operations: the first appends the loops to the two ends of the edge list and
  computes the degrees, whether each is positive, and their inverse square roots; the second is the outlined selection
  that turns those into the nodes' weights; the third wraps the indices, gathers, scales and scatter-adds.  Each
  stretch is read here from an arbitrary valuation of the buffers, given what its few input buffers hold, as the
  matching piece of Carry.lean: so no statement ever mentions more than one stretch, and the operations of a stretch
  are unfolded exactly once.
-/
import proofs.«160874_j25048249270385_1_alg».proof.Proof.Carry

set_option maxRecDepth 16384

noncomputable section

namespace Cert.KernelIdeal.Walk

open Cert.KernelIdeal Cert.KernelIdeal.Gen
open Idealize.ShloMosaic Idealize.ShloMosaic.TcCoe Idealize.ShloMosaic.ValueIdx Idealize.SL.Sem Idealize.ShloMosaic.StableHlo

variable (Wv : Valuation τ sig (Elt Ideal))

/-- The zero row the comparison of the degrees is made against. -/
abbrev zeros50000 : FVec Ideal S50000 .f32 := broadcastInDim S50000 ![] bcast_S_S50000 (constant (F := Ideal) S_ .f32 0x00000000#32)

/-! ## The first mixing -/

theorem loops1_src (s : IVec S800000 32) (h1 : Wv (Proc.devRef .tc main_v1) = s) :
    StableHlo.after hostOps1 Wv (Proc.devRef .tc main_v7) = withLoops s := by
  dsimp only [hostOps1]
  after_results
  rw [h1]
  rfl

theorem loops1_dst (d : IVec S800000 32) (h3 : Wv (Proc.devRef .tc main_v3) = d) :
    StableHlo.after hostOps1 Wv (Proc.devRef .tc main_v8) = withLoops d := by
  dsimp only [hostOps1]
  after_results
  rw [h3]
  rfl

theorem deg1_pos (d : IVec S800000 32) (h3 : Wv (Proc.devRef .tc main_v3) = d) :
    StableHlo.after hostOps1 Wv (Proc.devRef .tc main_v14) = cmpf (F := Ideal) .ogt (degOf (withLoops d)) zeros50000 := by
  dsimp only [hostOps1]
  after_results
  rw [h3]
  rfl

theorem deg1_rsqrt (d : IVec S800000 32) (h3 : Wv (Proc.devRef .tc main_v3) = d) :
    StableHlo.after hostOps1 Wv (Proc.devRef .tc main_v15) = Host.rsqrt (F := Ideal) (degOf (withLoops d)) := by
  dsimp only [hostOps1]
  after_results
  rw [h3]
  rfl

theorem zero1 : StableHlo.after hostOps1 Wv (Proc.devRef .tc main_cst_3) = constant (F := Ideal) S_ .f32 0x00000000#32 := by
  dsimp only [hostOps1]
  after_results <;> rfl

theorem weights1 (p : IVec S50000 1) (r : FVec Ideal S50000 .f32) (z : FVec Ideal S_ .f32)
    (h14 : Wv (Proc.devRef .tc main_v14) = p) (h15 : Wv (Proc.devRef .tc main_v15) = r) (hc : Wv (Proc.devRef .tc main_cst_3) = z) :
    StableHlo.after hostOps1_1 Wv (Proc.devRef .tc main_v16) = weightOf p r z := by
  dsimp only [hostOps1_1]
  after_results_simp
  rw [h14, h15, hc]
  simp only [TRef.toBuf, TRef.ofBuf, cast_eq]
  rfl

theorem mix1 (iS iD : IVec S850000 32) (w : FVec Ideal S50000 .f32) (h : FVec Ideal S50000x256 .f32)
    (h7 : Wv (Proc.devRef .tc main_v7) = iS) (h8 : Wv (Proc.devRef .tc main_v8) = iD) (h16 : Wv (Proc.devRef .tc main_v16) = w) (h5 : Wv (Proc.devRef .tc main_v5) = h) :
    StableHlo.after hostOps1_2 Wv (Proc.devRef .tc main_v44) = mixWith256 iS iD w h := by
  dsimp only [hostOps1_2]
  after_results_simp
  rw [h7, h8, h16, h5]
  rfl

theorem row1 (x3 : FVec Ideal S256 .f32) (h : Wv (Proc.devRef .tc main_arg3) = x3) :
    StableHlo.after hostOps1_2 Wv (Proc.devRef .tc main_v45) = biasRow256 x3 := by
  dsimp only [hostOps1_2]
  after_results_simp
  rw [h]
  rfl

/-! ## The second mixing -/

theorem loops3_src (s : IVec S800000 32) (h1 : Wv (Proc.devRef .tc main_v1) = s) :
    StableHlo.after hostOps3 Wv (Proc.devRef .tc main_v50) = withLoops s := by
  dsimp only [hostOps3]
  after_results
  rw [h1]
  rfl

theorem loops3_dst (d : IVec S800000 32) (h3 : Wv (Proc.devRef .tc main_v3) = d) :
    StableHlo.after hostOps3 Wv (Proc.devRef .tc main_v51) = withLoops d := by
  dsimp only [hostOps3]
  after_results
  rw [h3]
  rfl

theorem deg3_pos (d : IVec S800000 32) (h3 : Wv (Proc.devRef .tc main_v3) = d) :
    StableHlo.after hostOps3 Wv (Proc.devRef .tc main_v57) = cmpf (F := Ideal) .ogt (degOf (withLoops d)) zeros50000 := by
  dsimp only [hostOps3]
  after_results
  rw [h3]
  rfl

theorem deg3_rsqrt (d : IVec S800000 32) (h3 : Wv (Proc.devRef .tc main_v3) = d) :
    StableHlo.after hostOps3 Wv (Proc.devRef .tc main_v58) = Host.rsqrt (F := Ideal) (degOf (withLoops d)) := by
  dsimp only [hostOps3]
  after_results
  rw [h3]
  rfl

theorem zero3 : StableHlo.after hostOps3 Wv (Proc.devRef .tc main_cst_14) = constant (F := Ideal) S_ .f32 0x00000000#32 := by
  dsimp only [hostOps3]
  after_results <;> rfl

theorem weights3 (p : IVec S50000 1) (r : FVec Ideal S50000 .f32) (z : FVec Ideal S_ .f32)
    (h57 : Wv (Proc.devRef .tc main_v57) = p) (h58 : Wv (Proc.devRef .tc main_v58) = r) (hc : Wv (Proc.devRef .tc main_cst_14) = z) :
    StableHlo.after hostOps3_1 Wv (Proc.devRef .tc main_v59) = weightOf p r z := by
  dsimp only [hostOps3_1]
  after_results_simp
  rw [h57, h58, hc]
  simp only [TRef.toBuf, TRef.ofBuf, cast_eq]
  rfl

theorem mix3 (iS iD : IVec S850000 32) (w : FVec Ideal S50000 .f32) (h : FVec Ideal S50000x128 .f32)
    (h50 : Wv (Proc.devRef .tc main_v50) = iS) (h51 : Wv (Proc.devRef .tc main_v51) = iD) (h59 : Wv (Proc.devRef .tc main_v59) = w) (h48 : Wv (Proc.devRef .tc main_v48) = h) :
    StableHlo.after hostOps3_2 Wv (Proc.devRef .tc main_v87) = mixWith128 iS iD w h := by
  dsimp only [hostOps3_2]
  after_results_simp
  rw [h50, h51, h59, h48]
  rfl

theorem row3 (x5 : FVec Ideal S128 .f32) (h : Wv (Proc.devRef .tc main_arg5) = x5) :
    StableHlo.after hostOps3_2 Wv (Proc.devRef .tc main_v88) = biasRow128 x5 := by
  dsimp only [hostOps3_2]
  after_results_simp
  rw [h]
  rfl

end Cert.KernelIdeal.Walk

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.Spec.lean ====
/-
  The three dense steps of a two-layer graph convolution followed by a linear head, as functions of whole arrays,
  index by index, over the extended reals.

  A layer multiplies the node features by a weight matrix, mixes the rows along the graph's edges, and adds a bias
  (the first layer then clips below at zero); the head multiplies by a last matrix and adds a bias.  The mixing along
  the edges is the same text in the program and in its reference and is never opened.  What differs is how the dense
  steps are computed: row blocks of 2000 nodes at a time with the bias held as a one-row matrix, against one product
  over all 50000 nodes with the bias spread by two broadcasts.  Both are the functions below.
  • `affine x w b`: entry (p, g) is the sum over k of x(p, k) · w(k, g), plus b(0, g);
  • `addRow a b`: entry (p, g) is a(p, g) + b(0, g);
  • `reluAddRow a b`: entry (p, g) is the larger of a(p, g) + b(0, g) and zero.
  The zero is kept as the 32-bit pattern of +0.0 read at the ideal instance: the same word stands on both sides and is
  never evaluated.
-/
import Idealize.ShloMosaic.PureOps.Ideal.Laws
import Idealize.ShloMosaic.Lib.ValueIdx

noncomputable section

namespace Cert.Gcn

open Idealize.ShloMosaic Idealize.ShloMosaic.ValueIdx

variable {M K N : ℕ}

/-- A matrix product with a bias row added to every row of the product. -/
def affine (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => (∑ k : Fin K, x (ix2 (i 0 : Fin M) k) * w (ix2 k (i 1 : Fin N))) + b (ix2 (0 : Fin 1) (i 1 : Fin N))

/-- A bias row added to every row of a matrix. -/
def addRow (a : FVec Ideal ⟨2, ![M, N]⟩ .f32) (b : FVec Ideal ⟨2, ![1, N]⟩ .f32) : FVec Ideal ⟨2, ![M, N]⟩ .f32 :=
  fun i => a i + b (ix2 (0 : Fin 1) (i 1 : Fin N))

/-- A bias row added to every row of a matrix, the sum clipped below at zero. -/
def reluAddRow (a : FVec Ideal ⟨2, ![M, N]⟩ .f32) (b : FVec Ideal ⟨2, ![1, N]⟩ .f32) : FVec Ideal ⟨2, ![M, N]⟩ .f32 :=
  fun i => max (a i + b (ix2 (0 : Fin 1) (i 1 : Fin N))) (Ideal.ofBits .f32 0x00000000#32)

theorem affine_apply (x : FVec Ideal ⟨2, ![M, K]⟩ .f32) (w : FVec Ideal ⟨2, ![K, N]⟩ .f32) (b : FVec Ideal ⟨2, ![1, N]⟩ .f32)
    (p : Fin M) (g : Fin N) :
    affine x w b (ix2 p g) = (∑ k : Fin K, x (ix2 p k) * w (ix2 k g)) + b (ix2 (0 : Fin 1) g) := rfl

theorem addRow_apply (a : FVec Ideal ⟨2, ![M, N]⟩ .f32) (b : FVec Ideal ⟨2, ![1, N]⟩ .f32) (p : Fin M) (g : Fin N) :
    addRow a b (ix2 p g) = a (ix2 p g) + b (ix2 (0 : Fin 1) g) := rfl

theorem reluAddRow_apply (a : FVec Ideal ⟨2, ![M, N]⟩ .f32) (b : FVec Ideal ⟨2, ![1, N]⟩ .f32) (p : Fin M) (g : Fin N) :
    reluAddRow a b (ix2 p g) = max (a (ix2 p g) + b (ix2 (0 : Fin 1) g)) (Ideal.ofBits .f32 0x00000000#32) := rfl

end Cert.Gcn

end
-- ==== Proof.Region0.lean ====
/-
  The first dense step, one block of 2000 nodes at a time.

  At grid point t the kernel is handed rows 2000·t … 2000·t + 1999 of the node features, the whole weight matrix and a
  one-row bias, multiplies the block by the weights into a zero accumulator and adds the bias row to every row of the
  product.  Read at a block index (p, g) that is the sum over k of feature (2000·t + p, k) times weight (k, g), plus the
  bias entry g: row 2000·t + p of `affine` of the whole arrays.  The 25 blocks tile the 50000 rows, so after the last
  point the output array is `affine` of the arrays the region was entered with.
-/
import proofs.«160874_j25048249270385_1_alg».proof.Proof.Gen.KernelIdeal.Frame
import proofs.«160874_j25048249270385_1_alg».proof.Proof.LibPlainDot
import proofs.«160874_j25048249270385_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Dense0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's value at entry (p, g) of its block: row p of the feature block against column g of the weights, plus
    the bias row's entry g.  The narrowing of both factors to bf16 is the identity on the extended reals, and the
    accumulator is zero. -/
theorem body_apply (x0 : Vec Ideal S2000x128 .f32) (x1 : Vec Ideal S128x256 .f32) (x2 : Vec Ideal S1x256 .f32)
    (p : Fin 2000) (g : Fin 256) :
    k0_pay1 (F := Ideal) x0 x1 x2 (ix2 p g)
      = (∑ k : Fin 128, x0 (ix2 p k) * x1 (ix2 k g)) + x2 (ix2 (0 : Fin 1) g) := by
  unfold k0_pay1
  rw [addf_apply, Cert.PlainDot.matmul_zero_apply dot_S2000x128_S128x256_S2000x256_1_0_0_1_n_n rfl,
    broadcastTo_1b_ab_apply, shapeCast_self]
  rfl

/-- Where each window's block sits at point t: the feature block and the output block at block row t, the weights
    and the bias row whole. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row of the whole array that row p of block t is. -/
abbrev row (t : Fin cfg0.N) (p : Fin 2000) : Fin 50000 := ⟨t.val * 2000 + p.val, by
  have ht : t.val < 25 := lt_of_lt_of_eq t.isLt N_0
  have hp := p.isLt
  omega⟩

/-- The feature block read at (p, k) is the feature array at row 2000·t + p. -/
theorem features_at (c : Dev nD) (t : Fin cfg0.N) (p : Fin 2000) (k : Fin 128) :
    iblk0 V c 0 t (ix2 p k) = V c main_arg0 (ix2 (row t p) k) := by
  obtain ⟨e0, e1, -⟩ := block_index t
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The weight block is the whole weight matrix. -/
theorem weights_at (c : Dev nD) (t : Fin cfg0.N) (k : Fin 128) (g : Fin 256) :
    iblk0 V c 1 t (ix2 k g) = V c main_arg2 (ix2 k g) := by
  obtain ⟨-, -, e2, e3, -⟩ := block_index t
  show V c main_arg2 (((cfg0.win 1).blk t).view.emb (ix2 k g)) = V c main_arg2 (ix2 k g)
  refine congrArg (V c main_arg2) (funext fun a => Fin.ext ?_)
  match a with
  | ⟨0, _⟩ => show win0_1.index t (0 : Fin 2) * 128 + 1 * k.val = k.val; rw [e2]; omega
  | ⟨1, _⟩ => show win0_1.index t (1 : Fin 2) * 256 + 1 * g.val = g.val; rw [e3]; omega

/-- The bias block is the whole one-row bias. -/
theorem bias_at (c : Dev nD) (t : Fin cfg0.N) (g : Fin 256) :
    iblk0 V c 2 t (ix2 (0 : Fin 1) g) = V c main_v4 (ix2 (0 : Fin 1) g) := by
  obtain ⟨-, -, -, -, e4, e5, -⟩ := block_index t
  show V c main_v4 (((cfg0.win 2).blk t).view.emb (ix2 (0 : Fin 1) g)) = V c main_v4 (ix2 (0 : Fin 1) g)
  refine congrArg (V c main_v4) (funext fun a => Fin.ext ?_)
  match a with
  | ⟨0, _⟩ => show win0_2.index t (0 : Fin 2) * 1 + 1 * 0 = 0; rw [e4]
  | ⟨1, _⟩ => show win0_2.index t (1 : Fin 2) * 256 + 1 * g.val = g.val; rw [e5]; omega

/-- Entry (p, g) of the output block sits at row 2000·t + p, column g of the output array. -/
theorem out_at (t : Fin cfg0.N) (p : Fin 2000) (g : Fin 256) :
    ((cfg0.win 3).blk t).view.emb (ix2 p g) = ix2 (row t p) g := by
  obtain ⟨-, -, -, -, -, -, e6, e7⟩ := block_index t
  refine funext fun a => Fin.ext ?_
  match a with
  | ⟨0, _⟩ => show win0_3.index t (0 : Fin 2) * 2000 + 1 * p.val = t.val * 2000 + p.val; rw [e6]; omega
  | ⟨1, _⟩ => show win0_3.index t (1 : Fin 2) * 256 + 1 * g.val = g.val; rw [e7]; omega

/-- What point t writes back is block t of `affine` of the arrays the region was entered with. -/
theorem flushed_eq (c : Dev nD) (t : Fin cfg0.N) :
    (dat0 V c).flushed 3 t
      = ((cfg0.win 3).blk t).view.read (Elt Ideal) (Cert.Gcn.affine (V c main_arg0) (V c main_arg2) (V c main_v4)) := by
  show (cfg0.win 3).cut (grid0.coords t) ((dat0 V c).after 3 t) = _
  rw [after0_3]
  unfold out0_3
  rw [View.canon_unit_zero origin]
  simp only [View.ld_unit_zero (S := S2000x128) origin, View.ld_unit_zero (S := S128x256) origin,
    View.ld_unit_zero (S := S1x256) origin]
  funext j
  obtain ⟨p, g, rfl⟩ : ∃ (p : Fin 2000) (g : Fin 256), j = ix2 p g := ⟨j 0, j 1, eq_ix2 j⟩
  show k0_pay1 (F := Ideal) (iblk0 V c 0 t) (iblk0 V c 1 t) (iblk0 V c 2 t) (ix2 p g)
    = Cert.Gcn.affine (V c main_arg0) (V c main_arg2) (V c main_v4) (((cfg0.win 3).blk t).view.emb (ix2 p g))
  rw [body_apply, out_at, Cert.Gcn.affine_apply, bias_at]
  refine congrArg (· + _) (Finset.sum_congr rfl fun k _ => ?_)
  rw [features_at, weights_at]

/-- An index of the output array is in point t's block iff each coordinate is in the block's range on its axis. -/
theorem mem_block (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v5).slice (win0_3.rect t)).set ↔ _
  rw [View.set_slice_whole, Rect.mem_set_unit]
  exact Iff.rfl

/-- Every row of the output array lies in the block of the point numbered by the row divided by 2000. -/
theorem covered (i : S50000x256.Idx) :
    ∃ t : Fin cfg0.N, (cfg0.win 3).flush t = true ∧ i ∈ ((cfg0.win 3).blk t).view.set := by
  have h0 : (i 0).val < 50000 := (i 0).isLt
  have h1 : (i 1).val < 256 := (i 1).isLt
  let t : Fin cfg0.N := ⟨(i 0).val / 2000, by rw [show cfg0.N = 25 from N_0]; omega⟩
  obtain ⟨-, -, -, -, -, -, e6, e7⟩ := block_index t
  have ht : t.val = (i 0).val / 2000 := rfl
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    rw [e6, ht]; omega
  | ⟨1, _⟩ =>
    show win0_3.index t (1 : Fin 2) * 256 ≤ (i 1).val ∧ (i 1).val < win0_3.index t (1 : Fin 2) * 256 + 256
    rw [e7]; omega

/-- After the last point the output array is `affine` of the arrays the region was entered with. -/
theorem final (c : Dev nD) :
    (dat0 V c).arrAt 3 cfg0.N = Cert.Gcn.affine (V c main_arg0) (V c main_arg2) (V c main_v4) :=
  (dat0 V c).arrAt_eq_of_cover 3 _ (fun t _ => flushed_eq V c t) covered

end Cert.KernelIdeal.Dense0

end
-- ==== Proof.Region1.lean ====
/-
  The first layer's bias and clipping, one block of 2000 nodes at a time.

  At grid point t the kernel is handed rows 2000·t … 2000·t + 1999 of the mixed features and the bias as a one-row
  matrix, and adds the bias row to every row of the block, then takes the maximum with zero.  Read at a block index (p, g) that is
  entry (2000·t + p, g) of `reluAddRow` of the whole arrays.  The 25 blocks tile the 50000 rows, so after the last point the
  output array is `reluAddRow` of the arrays the region was entered with.
-/
import proofs.«160874_j25048249270385_1_alg».proof.Proof.Gen.KernelIdeal.Frame
import proofs.«160874_j25048249270385_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Bias1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's value at entry (p, g) of its block: the block's entry plus the bias row's entry g, clipped below at zero.  The casts to
    the same shape change nothing. -/
theorem body_apply (x0 : Vec Ideal S2000x256 .f32) (x1 : Vec Ideal S1x256 .f32) (p : Fin 2000) (g : Fin 256) :
    k1_pay1 (F := Ideal) x0 x1 (ix2 p g) = max (x0 (ix2 p g) + x1 (ix2 (0 : Fin 1) g)) (Ideal.ofBits .f32 0x00000000#32) := by
  unfold k1_pay1
  rw [maximumf_apply, addf_apply, broadcastTo_1b_ab_apply]
  simp only [shapeCast_self]
  rfl

/-- Where each window's block sits at point t: the feature block and the output block at block row t, the bias row
    whole. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row of the whole array that row p of block t is. -/
abbrev row (t : Fin cfg1.N) (p : Fin 2000) : Fin 50000 := ⟨t.val * 2000 + p.val, by
  have ht : t.val < 25 := lt_of_lt_of_eq t.isLt N_1
  have hp := p.isLt
  omega⟩

/-- The feature block read at (p, g) is the feature array at row 2000·t + p. -/
theorem features_at (c : Dev nD) (t : Fin cfg1.N) (p : Fin 2000) (g : Fin 256) :
    iblk1 V c 0 t (ix2 p g) = V c main_v44 (ix2 (row t p) g) := by
  obtain ⟨e0, e1, -⟩ := block_index t
  show V c main_v44 (((cfg1.win 0).blk t).view.emb (ix2 p g)) = V c main_v44 (ix2 (row t p) g)
  refine congrArg (V c main_v44) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * g.val = g.val; rw [e1]; omega

/-- The bias block is the whole one-row bias. -/
theorem bias_at (c : Dev nD) (t : Fin cfg1.N) (g : Fin 256) :
    iblk1 V c 1 t (ix2 (0 : Fin 1) g) = V c main_v45 (ix2 (0 : Fin 1) g) := by
  obtain ⟨-, -, e2, e3, -⟩ := block_index t
  show V c main_v45 (((cfg1.win 1).blk t).view.emb (ix2 (0 : Fin 1) g)) = V c main_v45 (ix2 (0 : Fin 1) g)
  refine congrArg (V c main_v45) (funext fun a => Fin.ext ?_)
  match a with
  | ⟨0, _⟩ => show win1_1.index t (0 : Fin 2) * 1 + 1 * 0 = 0; rw [e2]
  | ⟨1, _⟩ => show win1_1.index t (1 : Fin 2) * 256 + 1 * g.val = g.val; rw [e3]; omega

/-- Entry (p, g) of the output block sits at row 2000·t + p, column g of the output array. -/
theorem out_at (t : Fin cfg1.N) (p : Fin 2000) (g : Fin 256) :
    ((cfg1.win 2).blk t).view.emb (ix2 p g) = ix2 (row t p) g := by
  obtain ⟨-, -, -, -, e4, e5⟩ := block_index t
  refine funext fun a => Fin.ext ?_
  match a with
  | ⟨0, _⟩ => show win1_2.index t (0 : Fin 2) * 2000 + 1 * p.val = t.val * 2000 + p.val; rw [e4]; omega
  | ⟨1, _⟩ => show win1_2.index t (1 : Fin 2) * 256 + 1 * g.val = g.val; rw [e5]; omega

/-- What point t writes back is block t of `reluAddRow` of the arrays the region was entered with. -/
theorem flushed_eq (c : Dev nD) (t : Fin cfg1.N) :
    (dat1 V c).flushed 2 t
      = ((cfg1.win 2).blk t).view.read (Elt Ideal) (Cert.Gcn.reluAddRow (V c main_v44) (V c main_v45)) := by
  show (cfg1.win 2).cut (grid1.coords t) ((dat1 V c).after 2 t) = _
  rw [after1_2]
  unfold out1_2
  rw [View.canon_unit_zero origin]
  simp only [View.ld_unit_zero (S := S2000x256) origin, View.ld_unit_zero (S := S1x256) origin]
  funext j
  obtain ⟨p, g, rfl⟩ : ∃ (p : Fin 2000) (g : Fin 256), j = ix2 p g := ⟨j 0, j 1, eq_ix2 j⟩
  show k1_pay1 (F := Ideal) (iblk1 V c 0 t) (iblk1 V c 1 t) (ix2 p g)
    = Cert.Gcn.reluAddRow (V c main_v44) (V c main_v45) (((cfg1.win 2).blk t).view.emb (ix2 p g))
  rw [body_apply, out_at, Cert.Gcn.reluAddRow_apply, bias_at, features_at]

/-- An index of the output array is in point t's block iff each coordinate is in the block's range on its axis. -/
theorem mem_block (t : Fin cfg1.N) (i : S50000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v46).slice (win1_2.rect t)).set ↔ _
  rw [View.set_slice_whole, Rect.mem_set_unit]
  exact Iff.rfl

/-- Every row of the output array lies in the block of the point numbered by the row divided by 2000. -/
theorem covered (i : S50000x256.Idx) :
    ∃ t : Fin cfg1.N, (cfg1.win 2).flush t = true ∧ i ∈ ((cfg1.win 2).blk t).view.set := by
  have h0 : (i 0).val < 50000 := (i 0).isLt
  have h1 : (i 1).val < 256 := (i 1).isLt
  let t : Fin cfg1.N := ⟨(i 0).val / 2000, by rw [show cfg1.N = 25 from N_1]; omega⟩
  obtain ⟨-, -, -, -, e4, e5⟩ := block_index t
  have ht : t.val = (i 0).val / 2000 := rfl
  refine ⟨t, flush1_2 t, ?_⟩
  rw [mem_block]
  intro a
  match a with
  | ⟨0, _⟩ =>
    show win1_2.index t (0 : Fin 2) * 2000 ≤ (i 0).val ∧ (i 0).val < win1_2.index t (0 : Fin 2) * 2000 + 2000
    rw [e4, ht]; omega
  | ⟨1, _⟩ =>
    show win1_2.index t (1 : Fin 2) * 256 ≤ (i 1).val ∧ (i 1).val < win1_2.index t (1 : Fin 2) * 256 + 256
    rw [e5]; omega

/-- After the last point the output array is `reluAddRow` of the arrays the region was entered with. -/
theorem final (c : Dev nD) :
    (dat1 V c).arrAt 2 cfg1.N = Cert.Gcn.reluAddRow (V c main_v44) (V c main_v45) :=
  (dat1 V c).arrAt_eq_of_cover 2 _ (fun t _ => flushed_eq V c t) covered

end Cert.KernelIdeal.Bias1

end
-- ==== Proof.Region2.lean ====
/-
  The second dense step, one block of 2000 nodes at a time: the clipped first layer times the second weight matrix.

  At grid point t the kernel is handed rows 2000·t … 2000·t + 1999 of the features, the whole weight matrix and a
  one-row bias, multiplies the block by the weights into a zero accumulator and adds the bias row to every row of the
  product.  Read at a block index (p, g) that is the sum over k of feature (2000·t + p, k) times weight (k, g), plus the
  bias entry g: row 2000·t + p of `affine` of the whole arrays.  The 25 blocks tile the 50000 rows, so after the last
  point the output array is `affine` of the arrays the region was entered with.
-/
import proofs.«160874_j25048249270385_1_alg».proof.Proof.Gen.KernelIdeal.Frame
import proofs.«160874_j25048249270385_1_alg».proof.Proof.LibPlainDot
import proofs.«160874_j25048249270385_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Dense2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's value at entry (p, g) of its block: row p of the feature block against column g of the weights, plus
    the bias row's entry g.  The narrowing of both factors to bf16 is the identity on the extended reals, a cast to
    the same shape changes nothing, and the accumulator is zero. -/
theorem body_apply (x0 : Vec Ideal S2000x256 .f32) (x1 : Vec Ideal S256x128 .f32) (x2 : Vec Ideal S1x128 .f32)
    (p : Fin 2000) (g : Fin 128) :
    k2_pay1 (F := Ideal) x0 x1 x2 (ix2 p g)
      = (∑ k : Fin 256, x0 (ix2 p k) * x1 (ix2 k g)) + x2 (ix2 (0 : Fin 1) g) := by
  unfold k2_pay1
  rw [addf_apply, Cert.PlainDot.matmul_zero_apply dot_S2000x256_S256x128_S2000x128_1_0_0_1_n_n rfl,
    broadcastTo_1b_ab_apply]
  simp only [shapeCast_self]
  rfl

/-- Where each window's block sits at point t: the feature block and the output block at block row t, the weights
    and the bias row whole. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The row of the whole array that row p of block t is. -/
abbrev row (t : Fin cfg2.N) (p : Fin 2000) : Fin 50000 := ⟨t.val * 2000 + p.val, by
  have ht : t.val < 25 := lt_of_lt_of_eq t.isLt N_2
  have hp := p.isLt
  omega⟩

/-- The feature block read at (p, k) is the feature array at row 2000·t + p. -/
theorem features_at (c : Dev nD) (t : Fin cfg2.N) (p : Fin 2000) (k : Fin 256) :
    iblk2 V c 0 t (ix2 p k) = V c main_v46 (ix2 (row t p) k) := by
  obtain ⟨e0, e1, -⟩ := block_index t
  show V c main_v46 (((cfg2.win 0).blk t).view.emb (ix2 p k)) = V c main_v46 (ix2 (row t p) k)
  refine congrArg (V c main_v46) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 256 + 1 * k.val = k.val; rw [e1]; omega

/-- The weight block is the whole weight matrix. -/
theorem weights_at (c : Dev nD) (t : Fin cfg2.N) (k : Fin 256) (g : Fin 128) :
    iblk2 V c 1 t (ix2 k g) = V c main_arg4 (ix2 k g) := by
  obtain ⟨-, -, e2, e3, -⟩ := block_index t
  show V c main_arg4 (((cfg2.win 1).blk t).view.emb (ix2 k g)) = V c main_arg4 (ix2 k g)
  refine congrArg (V c main_arg4) (funext fun a => Fin.ext ?_)
  match a with
  | ⟨0, _⟩ => show win2_1.index t (0 : Fin 2) * 256 + 1 * k.val = k.val; rw [e2]; omega
  | ⟨1, _⟩ => show win2_1.index t (1 : Fin 2) * 128 + 1 * g.val = g.val; rw [e3]; omega

/-- The bias block is the whole one-row bias. -/
theorem bias_at (c : Dev nD) (t : Fin cfg2.N) (g : Fin 128) :
    iblk2 V c 2 t (ix2 (0 : Fin 1) g) = V c main_v47 (ix2 (0 : Fin 1) g) := by
  obtain ⟨-, -, -, -, e4, e5, -⟩ := block_index t
  show V c main_v47 (((cfg2.win 2).blk t).view.emb (ix2 (0 : Fin 1) g)) = V c main_v47 (ix2 (0 : Fin 1) g)
  refine congrArg (V c main_v47) (funext fun a => Fin.ext ?_)
  match a with
  | ⟨0, _⟩ => show win2_2.index t (0 : Fin 2) * 1 + 1 * 0 = 0; rw [e4]
  | ⟨1, _⟩ => show win2_2.index t (1 : Fin 2) * 128 + 1 * g.val = g.val; rw [e5]; omega

/-- Entry (p, g) of the output block sits at row 2000·t + p, column g of the output array. -/
theorem out_at (t : Fin cfg2.N) (p : Fin 2000) (g : Fin 128) :
    ((cfg2.win 3).blk t).view.emb (ix2 p g) = ix2 (row t p) g := by
  obtain ⟨-, -, -, -, -, -, e6, e7⟩ := block_index t
  refine funext fun a => Fin.ext ?_
  match a with
  | ⟨0, _⟩ => show win2_3.index t (0 : Fin 2) * 2000 + 1 * p.val = t.val * 2000 + p.val; rw [e6]; omega
  | ⟨1, _⟩ => show win2_3.index t (1 : Fin 2) * 128 + 1 * g.val = g.val; rw [e7]; omega

/-- What point t writes back is block t of `affine` of the arrays the region was entered with. -/
theorem flushed_eq (c : Dev nD) (t : Fin cfg2.N) :
    (dat2 V c).flushed 3 t
      = ((cfg2.win 3).blk t).view.read (Elt Ideal) (Cert.Gcn.affine (V c main_v46) (V c main_arg4) (V c main_v47)) := by
  show (cfg2.win 3).cut (grid2.coords t) ((dat2 V c).after 3 t) = _
  rw [after2_3]
  unfold out2_3
  rw [View.canon_unit_zero origin]
  simp only [View.ld_unit_zero (S := S2000x256) origin, View.ld_unit_zero (S := S256x128) origin,
    View.ld_unit_zero (S := S1x128) origin]
  funext j
  obtain ⟨p, g, rfl⟩ : ∃ (p : Fin 2000) (g : Fin 128), j = ix2 p g := ⟨j 0, j 1, eq_ix2 j⟩
  show k2_pay1 (F := Ideal) (iblk2 V c 0 t) (iblk2 V c 1 t) (iblk2 V c 2 t) (ix2 p g)
    = Cert.Gcn.affine (V c main_v46) (V c main_arg4) (V c main_v47) (((cfg2.win 3).blk t).view.emb (ix2 p g))
  rw [body_apply, out_at, Cert.Gcn.affine_apply, bias_at]
  refine congrArg (· + _) (Finset.sum_congr rfl fun k _ => ?_)
  rw [features_at, weights_at]

/-- An index of the output array is in point t's block iff each coordinate is in the block's range on its axis. -/
theorem mem_block (t : Fin cfg2.N) (i : S50000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v48).slice (win2_3.rect t)).set ↔ _
  rw [View.set_slice_whole, Rect.mem_set_unit]
  exact Iff.rfl

/-- Every row of the output array lies in the block of the point numbered by the row divided by 2000. -/
theorem covered (i : S50000x128.Idx) :
    ∃ t : Fin cfg2.N, (cfg2.win 3).flush t = true ∧ i ∈ ((cfg2.win 3).blk t).view.set := by
  have h0 : (i 0).val < 50000 := (i 0).isLt
  have h1 : (i 1).val < 128 := (i 1).isLt
  let t : Fin cfg2.N := ⟨(i 0).val / 2000, by rw [show cfg2.N = 25 from N_2]; omega⟩
  obtain ⟨-, -, -, -, -, -, e6, e7⟩ := block_index t
  have ht : t.val = (i 0).val / 2000 := rfl
  refine ⟨t, flush2_3 t, ?_⟩
  rw [mem_block]
  intro a
  match a with
  | ⟨0, _⟩ =>
    show win2_3.index t (0 : Fin 2) * 2000 ≤ (i 0).val ∧ (i 0).val < win2_3.index t (0 : Fin 2) * 2000 + 2000
    rw [e6, ht]; omega
  | ⟨1, _⟩ =>
    show win2_3.index t (1 : Fin 2) * 128 ≤ (i 1).val ∧ (i 1).val < win2_3.index t (1 : Fin 2) * 128 + 128
    rw [e7]; omega

/-- After the last point the output array is `affine` of the arrays the region was entered with. -/
theorem final (c : Dev nD) :
    (dat2 V c).arrAt 3 cfg2.N = Cert.Gcn.affine (V c main_v46) (V c main_arg4) (V c main_v47) :=
  (dat2 V c).arrAt_eq_of_cover 3 _ (fun t _ => flushed_eq V c t) covered

end Cert.KernelIdeal.Dense2

end
-- ==== Proof.Region3.lean ====
/-
  The second layer's bias, one block of 2000 nodes at a time.

  At grid point t the kernel is handed rows 2000·t … 2000·t + 1999 of the mixed features and the bias as a one-row
  matrix, and adds the bias row to every row of the block.  Read at a block index (p, g) that is
  entry (2000·t + p, g) of `addRow` of the whole arrays.  The 25 blocks tile the 50000 rows, so after the last point the
  output array is `addRow` of the arrays the region was entered with.
-/
import proofs.«160874_j25048249270385_1_alg».proof.Proof.Gen.KernelIdeal.Frame
import proofs.«160874_j25048249270385_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Bias3

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's value at entry (p, g) of its block: the block's entry plus the bias row's entry g.  The casts to
    the same shape change nothing. -/
theorem body_apply (x0 : Vec Ideal S2000x128 .f32) (x1 : Vec Ideal S1x128 .f32) (p : Fin 2000) (g : Fin 128) :
    k3_pay1 (F := Ideal) x0 x1 (ix2 p g) = x0 (ix2 p g) + x1 (ix2 (0 : Fin 1) g) := by
  unfold k3_pay1
  rw [addf_apply, broadcastTo_1b_ab_apply]
  simp only [shapeCast_self]

/-- Where each window's block sits at point t: the feature block and the output block at block row t, the bias row
    whole. -/
theorem block_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row of the whole array that row p of block t is. -/
abbrev row (t : Fin cfg3.N) (p : Fin 2000) : Fin 50000 := ⟨t.val * 2000 + p.val, by
  have ht : t.val < 25 := lt_of_lt_of_eq t.isLt N_3
  have hp := p.isLt
  omega⟩

/-- The feature block read at (p, g) is the feature array at row 2000·t + p. -/
theorem features_at (c : Dev nD) (t : Fin cfg3.N) (p : Fin 2000) (g : Fin 128) :
    iblk3 V c 0 t (ix2 p g) = V c main_v87 (ix2 (row t p) g) := by
  obtain ⟨e0, e1, -⟩ := block_index t
  show V c main_v87 (((cfg3.win 0).blk t).view.emb (ix2 p g)) = V c main_v87 (ix2 (row t p) g)
  refine congrArg (V c main_v87) (funext fun a => Fin.ext ?_)
  match a with
  | ⟨0, _⟩ => show win3_0.index t (0 : Fin 2) * 2000 + 1 * p.val = t.val * 2000 + p.val; rw [e0]; omega
  | ⟨1, _⟩ => show win3_0.index t (1 : Fin 2) * 128 + 1 * g.val = g.val; rw [e1]; omega

/-- The bias block is the whole one-row bias. -/
theorem bias_at (c : Dev nD) (t : Fin cfg3.N) (g : Fin 128) :
    iblk3 V c 1 t (ix2 (0 : Fin 1) g) = V c main_v88 (ix2 (0 : Fin 1) g) := by
  obtain ⟨-, -, e2, e3, -⟩ := block_index t
  show V c main_v88 (((cfg3.win 1).blk t).view.emb (ix2 (0 : Fin 1) g)) = V c main_v88 (ix2 (0 : Fin 1) g)
  refine congrArg (V c main_v88) (funext fun a => Fin.ext ?_)
  match a with
  | ⟨0, _⟩ => show win3_1.index t (0 : Fin 2) * 1 + 1 * 0 = 0; rw [e2]
  | ⟨1, _⟩ => show win3_1.index t (1 : Fin 2) * 128 + 1 * g.val = g.val; rw [e3]; omega

/-- Entry (p, g) of the output block sits at row 2000·t + p, column g of the output array. -/
theorem out_at (t : Fin cfg3.N) (p : Fin 2000) (g : Fin 128) :
    ((cfg3.win 2).blk t).view.emb (ix2 p g) = ix2 (row t p) g := by
  obtain ⟨-, -, -, -, e4, e5⟩ := block_index t
  refine funext fun a => Fin.ext ?_
  match a with
  | ⟨0, _⟩ => show win3_2.index t (0 : Fin 2) * 2000 + 1 * p.val = t.val * 2000 + p.val; rw [e4]; omega
  | ⟨1, _⟩ => show win3_2.index t (1 : Fin 2) * 128 + 1 * g.val = g.val; rw [e5]; omega

/-- What point t writes back is block t of `addRow` of the arrays the region was entered with. -/
theorem flushed_eq (c : Dev nD) (t : Fin cfg3.N) :
    (dat3 V c).flushed 2 t
      = ((cfg3.win 2).blk t).view.read (Elt Ideal) (Cert.Gcn.addRow (V c main_v87) (V c main_v88)) := by
  show (cfg3.win 2).cut (grid3.coords t) ((dat3 V c).after 2 t) = _
  rw [after3_2]
  unfold out3_2
  rw [View.canon_unit_zero origin]
  simp only [View.ld_unit_zero (S := S2000x128) origin, View.ld_unit_zero (S := S1x128) origin]
  funext j
  obtain ⟨p, g, rfl⟩ : ∃ (p : Fin 2000) (g : Fin 128), j = ix2 p g := ⟨j 0, j 1, eq_ix2 j⟩
  show k3_pay1 (F := Ideal) (iblk3 V c 0 t) (iblk3 V c 1 t) (ix2 p g)
    = Cert.Gcn.addRow (V c main_v87) (V c main_v88) (((cfg3.win 2).blk t).view.emb (ix2 p g))
  rw [body_apply, out_at, Cert.Gcn.addRow_apply, bias_at, features_at]

/-- An index of the output array is in point t's block iff each coordinate is in the block's range on its axis. -/
theorem mem_block (t : Fin cfg3.N) (i : S50000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v89).slice (win3_2.rect t)).set ↔ _
  rw [View.set_slice_whole, Rect.mem_set_unit]
  exact Iff.rfl

/-- Every row of the output array lies in the block of the point numbered by the row divided by 2000. -/
theorem covered (i : S50000x128.Idx) :
    ∃ t : Fin cfg3.N, (cfg3.win 2).flush t = true ∧ i ∈ ((cfg3.win 2).blk t).view.set := by
  have h0 : (i 0).val < 50000 := (i 0).isLt
  have h1 : (i 1).val < 128 := (i 1).isLt
  let t : Fin cfg3.N := ⟨(i 0).val / 2000, by rw [show cfg3.N = 25 from N_3]; omega⟩
  obtain ⟨-, -, -, -, e4, e5⟩ := block_index t
  have ht : t.val = (i 0).val / 2000 := rfl
  refine ⟨t, flush3_2 t, ?_⟩
  rw [mem_block]
  intro a
  match a with
  | ⟨0, _⟩ =>
    show win3_2.index t (0 : Fin 2) * 2000 ≤ (i 0).val ∧ (i 0).val < win3_2.index t (0 : Fin 2) * 2000 + 2000
    rw [e4, ht]; omega
  | ⟨1, _⟩ =>
    show win3_2.index t (1 : Fin 2) * 128 ≤ (i 1).val ∧ (i 1).val < win3_2.index t (1 : Fin 2) * 128 + 128
    rw [e5]; omega

/-- After the last point the output array is `addRow` of the arrays the region was entered with. -/
theorem final (c : Dev nD) :
    (dat3 V c).arrAt 2 cfg3.N = Cert.Gcn.addRow (V c main_v87) (V c main_v88) :=
  (dat3 V c).arrAt_eq_of_cover 2 _ (fun t _ => flushed_eq V c t) covered

end Cert.KernelIdeal.Bias3

end
-- ==== Proof.Region4.lean ====
/-
  The linear head, one block of 2000 nodes at a time: the second layer's output times the last matrix, plus its bias.

  At grid point t the kernel is handed rows 2000·t … 2000·t + 1999 of the features, the whole weight matrix and a
  one-row bias, multiplies the block by the weights into a zero accumulator and adds the bias row to every row of the
  product.  Read at a block index (p, g) that is the sum over k of feature (2000·t + p, k) times weight (k, g), plus the
  bias entry g: row 2000·t + p of `affine` of the whole arrays.  The 25 blocks tile the 50000 rows, so after the last
  point the output array is `affine` of the arrays the region was entered with.
-/
import proofs.«160874_j25048249270385_1_alg».proof.Proof.Gen.KernelIdeal.Frame
import proofs.«160874_j25048249270385_1_alg».proof.Proof.LibPlainDot
import proofs.«160874_j25048249270385_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Dense4

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's value at entry (p, g) of its block: row p of the feature block against column g of the weights, plus
    the bias row's entry g.  The narrowing of both factors to bf16 is the identity on the extended reals, a cast to
    the same shape changes nothing, and the accumulator is zero. -/
theorem body_apply (x0 : Vec Ideal S2000x128 .f32) (x1 : Vec Ideal S128x128 .f32) (x2 : Vec Ideal S1x128 .f32)
    (p : Fin 2000) (g : Fin 128) :
    k4_pay1 (F := Ideal) x0 x1 x2 (ix2 p g)
      = (∑ k : Fin 128, x0 (ix2 p k) * x1 (ix2 k g)) + x2 (ix2 (0 : Fin 1) g) := by
  unfold k4_pay1
  rw [addf_apply, Cert.PlainDot.matmul_zero_apply dot_S2000x128_S128x128_S2000x128_1_0_0_1_n_n rfl,
    broadcastTo_1b_ab_apply]
  simp only [shapeCast_self]
  rfl

/-- Where each window's block sits at point t: the feature block and the output block at block row t, the weights
    and the bias row whole. -/
theorem block_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The row of the whole array that row p of block t is. -/
abbrev row (t : Fin cfg4.N) (p : Fin 2000) : Fin 50000 := ⟨t.val * 2000 + p.val, by
  have ht : t.val < 25 := lt_of_lt_of_eq t.isLt N_4
  have hp := p.isLt
  omega⟩

/-- The feature block read at (p, k) is the feature array at row 2000·t + p. -/
theorem features_at (c : Dev nD) (t : Fin cfg4.N) (p : Fin 2000) (k : Fin 128) :
    iblk4 V c 0 t (ix2 p k) = V c main_v89 (ix2 (row t p) k) := by
  obtain ⟨e0, e1, -⟩ := block_index t
  show V c main_v89 (((cfg4.win 0).blk t).view.emb (ix2 p k)) = V c main_v89 (ix2 (row t p) k)
  refine congrArg (V c main_v89) (funext fun a => Fin.ext ?_)
  match a with
  | ⟨0, _⟩ => show win4_0.index t (0 : Fin 2) * 2000 + 1 * p.val = t.val * 2000 + p.val; rw [e0]; omega
  | ⟨1, _⟩ => show win4_0.index t (1 : Fin 2) * 128 + 1 * k.val = k.val; rw [e1]; omega

/-- The weight block is the whole weight matrix. -/
theorem weights_at (c : Dev nD) (t : Fin cfg4.N) (k : Fin 128) (g : Fin 128) :
    iblk4 V c 1 t (ix2 k g) = V c main_arg6 (ix2 k g) := by
  obtain ⟨-, -, e2, e3, -⟩ := block_index t
  show V c main_arg6 (((cfg4.win 1).blk t).view.emb (ix2 k g)) = V c main_arg6 (ix2 k g)
  refine congrArg (V c main_arg6) (funext fun a => Fin.ext ?_)
  match a with
  | ⟨0, _⟩ => show win4_1.index t (0 : Fin 2) * 128 + 1 * k.val = k.val; rw [e2]; omega
  | ⟨1, _⟩ => show win4_1.index t (1 : Fin 2) * 128 + 1 * g.val = g.val; rw [e3]; omega

/-- The bias block is the whole one-row bias. -/
theorem bias_at (c : Dev nD) (t : Fin cfg4.N) (g : Fin 128) :
    iblk4 V c 2 t (ix2 (0 : Fin 1) g) = V c main_v90 (ix2 (0 : Fin 1) g) := by
  obtain ⟨-, -, -, -, e4, e5, -⟩ := block_index t
  show V c main_v90 (((cfg4.win 2).blk t).view.emb (ix2 (0 : Fin 1) g)) = V c main_v90 (ix2 (0 : Fin 1) g)
  refine congrArg (V c main_v90) (funext fun a => Fin.ext ?_)
  match a with
  | ⟨0, _⟩ => show win4_2.index t (0 : Fin 2) * 1 + 1 * 0 = 0; rw [e4]
  | ⟨1, _⟩ => show win4_2.index t (1 : Fin 2) * 128 + 1 * g.val = g.val; rw [e5]; omega

/-- Entry (p, g) of the output block sits at row 2000·t + p, column g of the output array. -/
theorem out_at (t : Fin cfg4.N) (p : Fin 2000) (g : Fin 128) :
    ((cfg4.win 3).blk t).view.emb (ix2 p g) = ix2 (row t p) g := by
  obtain ⟨-, -, -, -, -, -, e6, e7⟩ := block_index t
  refine funext fun a => Fin.ext ?_
  match a with
  | ⟨0, _⟩ => show win4_3.index t (0 : Fin 2) * 2000 + 1 * p.val = t.val * 2000 + p.val; rw [e6]; omega
  | ⟨1, _⟩ => show win4_3.index t (1 : Fin 2) * 128 + 1 * g.val = g.val; rw [e7]; omega

/-- What point t writes back is block t of `affine` of the arrays the region was entered with. -/
theorem flushed_eq (c : Dev nD) (t : Fin cfg4.N) :
    (dat4 V c).flushed 3 t
      = ((cfg4.win 3).blk t).view.read (Elt Ideal) (Cert.Gcn.affine (V c main_v89) (V c main_arg6) (V c main_v90)) := by
  show (cfg4.win 3).cut (grid4.coords t) ((dat4 V c).after 3 t) = _
  rw [after4_3]
  unfold out4_3
  rw [View.canon_unit_zero origin]
  simp only [View.ld_unit_zero (S := S2000x128) origin, View.ld_unit_zero (S := S128x128) origin,
    View.ld_unit_zero (S := S1x128) origin]
  funext j
  obtain ⟨p, g, rfl⟩ : ∃ (p : Fin 2000) (g : Fin 128), j = ix2 p g := ⟨j 0, j 1, eq_ix2 j⟩
  show k4_pay1 (F := Ideal) (iblk4 V c 0 t) (iblk4 V c 1 t) (iblk4 V c 2 t) (ix2 p g)
    = Cert.Gcn.affine (V c main_v89) (V c main_arg6) (V c main_v90) (((cfg4.win 3).blk t).view.emb (ix2 p g))
  rw [body_apply, out_at, Cert.Gcn.affine_apply, bias_at]
  refine congrArg (· + _) (Finset.sum_congr rfl fun k _ => ?_)
  rw [features_at, weights_at]

/-- An index of the output array is in point t's block iff each coordinate is in the block's range on its axis. -/
theorem mem_block (t : Fin cfg4.N) (i : S50000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v91).slice (win4_3.rect t)).set ↔ _
  rw [View.set_slice_whole, Rect.mem_set_unit]
  exact Iff.rfl

/-- Every row of the output array lies in the block of the point numbered by the row divided by 2000. -/
theorem covered (i : S50000x128.Idx) :
    ∃ t : Fin cfg4.N, (cfg4.win 3).flush t = true ∧ i ∈ ((cfg4.win 3).blk t).view.set := by
  have h0 : (i 0).val < 50000 := (i 0).isLt
  have h1 : (i 1).val < 128 := (i 1).isLt
  let t : Fin cfg4.N := ⟨(i 0).val / 2000, by rw [show cfg4.N = 25 from N_4]; omega⟩
  obtain ⟨-, -, -, -, -, -, e6, e7⟩ := block_index t
  have ht : t.val = (i 0).val / 2000 := rfl
  refine ⟨t, flush4_3 t, ?_⟩
  rw [mem_block]
  intro a
  match a with
  | ⟨0, _⟩ =>
    show win4_3.index t (0 : Fin 2) * 2000 ≤ (i 0).val ∧ (i 0).val < win4_3.index t (0 : Fin 2) * 2000 + 2000
    rw [e6, ht]; omega
  | ⟨1, _⟩ =>
    show win4_3.index t (1 : Fin 2) * 128 ≤ (i 1).val ∧ (i 1).val < win4_3.index t (1 : Fin 2) * 128 + 128
    rw [e7]; omega

/-- After the last point the output array is `affine` of the arrays the region was entered with. -/
theorem final (c : Dev nD) :
    (dat4 V c).arrAt 3 cfg4.N = Cert.Gcn.affine (V c main_v89) (V c main_arg6) (V c main_v90) :=
  (dat4 V c).arrAt_eq_of_cover 3 _ (fun t _ => flushed_eq V c t) covered

end Cert.KernelIdeal.Dense4

end
-- ==== Proof.KernelValue.lean ====
/-
  The idealized kernel's result buffer, read boundary by boundary.

  This module walks the generated fold over the launch memory for the one buffer the claim is about.  At each region
  the output array is the function of Spec.lean of the arrays the region was entered with (the five region modules);
  at each host stretch a buffer it writes is its operations applied to what was there; in between, buffers are carried
  (Carry.lean).  The stretches that mix the features along the graph's edges are read one stretch at a time
  (Stretches.lean) and put together here: each mixing is the function `mixK256` / `mixK128` of the edge list and of the
  product that entered it.  The walk ends with the result as the dense steps around the two mixings, applied to the
  arguments (`expected`).
-/
import proofs.«160874_j25048249270385_1_alg».proof.Proof.Carry
import proofs.«160874_j25048249270385_1_alg».proof.Proof.Stretches
import proofs.«160874_j25048249270385_1_alg».proof.Proof.Region0
import proofs.«160874_j25048249270385_1_alg».proof.Proof.Region1
import proofs.«160874_j25048249270385_1_alg».proof.Proof.Region2
import proofs.«160874_j25048249270385_1_alg».proof.Proof.Region3
import proofs.«160874_j25048249270385_1_alg».proof.Proof.Region4

set_option maxRecDepth 16384

noncomputable section

namespace Cert.KernelIdeal.Walk

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The result, as the dense steps around the two mixings, applied to the arguments. -/
def expected : FVec Ideal S50000x128 .f32 :=
  Cert.Gcn.affine
        (Cert.Gcn.addRow
          (mixK128 (m ((c : Thread nD τ).loc main_arg1))
            (Cert.Gcn.affine
              (Cert.Gcn.reluAddRow
                (mixK256 (m ((c : Thread nD τ).loc main_arg1)) (Cert.Gcn.affine (m ((c : Thread nD τ).loc main_arg0)) (m ((c : Thread nD τ).loc main_arg2)) zeroRow256))
                (biasRow256 (m ((c : Thread nD τ).loc main_arg3))))
              (m ((c : Thread nD τ).loc main_arg4)) zeroRow128))
          (biasRow128 (m ((c : Thread nD τ).loc main_arg5))))
        (m ((c : Thread nD τ).loc main_arg6)) (biasRow128 (m ((c : Thread nD τ).loc main_arg7)))

/-! ## The first host stretch: the edge list cut in two, and a zero bias row -/

theorem src_at1 : W1 m ρ c (Proc.devRef .tc main_v1) = srcOf (m ((c : Thread nD τ).loc main_arg1)) := by
  dsimp only [W1, hostOps0]
  after_results <;> rfl

theorem dst_at1 : W1 m ρ c (Proc.devRef .tc main_v3) = dstOf (m ((c : Thread nD τ).loc main_arg1)) := by
  dsimp only [W1, hostOps0]
  after_results <;> rfl

theorem zero_at1 : W1 m ρ c (Proc.devRef .tc main_v4) = zeroRow256 := by
  dsimp only [W1, hostOps0]
  after_results <;> rfl

/-! ## Region 0: the first product -/

theorem product1 : W2 m ρ c (Proc.devRef .tc main_v5) = Cert.Gcn.affine (m ((c : Thread nD τ).loc main_arg0)) (m ((c : Thread nD τ).loc main_arg2)) zeroRow256 := by
  refine (W2_arr m ρ c 3).trans ((Cert.KernelIdeal.Dense0.final (V1 m ρ) c).trans ?_)
  show Cert.Gcn.affine (W1 m ρ c (Proc.devRef .tc main_arg0)) (W1 m ρ c (Proc.devRef .tc main_arg2)) (W1 m ρ c (Proc.devRef .tc main_v4)) = _
  rw [x0_at1 m ρ c, x2_at1 m ρ c, zero_at1 m ρ c]

/-! ## The first mixing, and the first bias as a row -/

theorem src_at2 : W2 m ρ c (Proc.devRef .tc main_v1) = srcOf (m ((c : Thread nD τ).loc main_arg1)) := (src_2to1 m ρ c).trans (src_at1 m ρ c)
theorem dst_at2 : W2 m ρ c (Proc.devRef .tc main_v3) = dstOf (m ((c : Thread nD τ).loc main_arg1)) := (dst_2to1 m ρ c).trans (dst_at1 m ρ c)

theorem idxS_at4 : W4 m ρ c (Proc.devRef .tc main_v7) = idxS (m ((c : Thread nD τ).loc main_arg1)) :=
  (idxS_4to3 m ρ c).trans (loops1_src (W2 m ρ c) _ (src_at2 m ρ c))

theorem idxD_at4 : W4 m ρ c (Proc.devRef .tc main_v8) = idxD (m ((c : Thread nD τ).loc main_arg1)) :=
  (idxD_4to3 m ρ c).trans (loops1_dst (W2 m ρ c) _ (dst_at2 m ρ c))

theorem dinv_at4 : W4 m ρ c (Proc.devRef .tc main_v16) = dinvOf (idxD (m ((c : Thread nD τ).loc main_arg1))) :=
  weights1 (W3 m ρ c) _ _ _ (deg1_pos (W2 m ρ c) _ (dst_at2 m ρ c)) (deg1_rsqrt (W2 m ρ c) _ (dst_at2 m ρ c)) (zero1 (W2 m ρ c))

theorem mixed1 : W5 m ρ c (Proc.devRef .tc main_v44) = mixK256 (m ((c : Thread nD τ).loc main_arg1)) (W2 m ρ c (Proc.devRef .tc main_v5)) :=
  mix1 (W4 m ρ c) _ _ _ _ (idxS_at4 m ρ c) (idxD_at4 m ρ c) (dinv_at4 m ρ c) (feat1_4to2 m ρ c)

theorem bias1_row : W5 m ρ c (Proc.devRef .tc main_v45) = biasRow256 (m ((c : Thread nD τ).loc main_arg3)) :=
  row1 (W4 m ρ c) _ (x3_at4 m ρ c)

/-! ## Region 1: the first bias and the clipping -/

theorem clipped : W6 m ρ c (Proc.devRef .tc main_v46) = Cert.Gcn.reluAddRow (W5 m ρ c (Proc.devRef .tc main_v44)) (W5 m ρ c (Proc.devRef .tc main_v45)) :=
  (W6_arr m ρ c 2).trans (Cert.KernelIdeal.Bias1.final (V5 m ρ) c)

/-! ## Region 2: the second product -/

theorem zero_at7 : W7 m ρ c (Proc.devRef .tc main_v47) = zeroRow128 := by
  dsimp only [W7, hostOps2]
  after_results <;> rfl

theorem product2 : W8 m ρ c (Proc.devRef .tc main_v48) = Cert.Gcn.affine (W6 m ρ c (Proc.devRef .tc main_v46)) (m ((c : Thread nD τ).loc main_arg4)) zeroRow128 := by
  refine (W8_arr m ρ c 3).trans ((Cert.KernelIdeal.Dense2.final (V7 m ρ) c).trans ?_)
  show Cert.Gcn.affine (W7 m ρ c (Proc.devRef .tc main_v46)) (W7 m ρ c (Proc.devRef .tc main_arg4)) (W7 m ρ c (Proc.devRef .tc main_v47)) = _
  rw [relu_7to6 m ρ c, x4_at7 m ρ c, zero_at7 m ρ c]

/-! ## The second mixing, and the second bias as a row -/

theorem src_at8 : W8 m ρ c (Proc.devRef .tc main_v1) = srcOf (m ((c : Thread nD τ).loc main_arg1)) := (src_8to1 m ρ c).trans (src_at1 m ρ c)
theorem dst_at8 : W8 m ρ c (Proc.devRef .tc main_v3) = dstOf (m ((c : Thread nD τ).loc main_arg1)) := (dst_8to1 m ρ c).trans (dst_at1 m ρ c)

theorem idxS_at10 : W10 m ρ c (Proc.devRef .tc main_v50) = idxS (m ((c : Thread nD τ).loc main_arg1)) :=
  (idxS_10to9 m ρ c).trans (loops3_src (W8 m ρ c) _ (src_at8 m ρ c))

theorem idxD_at10 : W10 m ρ c (Proc.devRef .tc main_v51) = idxD (m ((c : Thread nD τ).loc main_arg1)) :=
  (idxD_10to9 m ρ c).trans (loops3_dst (W8 m ρ c) _ (dst_at8 m ρ c))

theorem dinv_at10 : W10 m ρ c (Proc.devRef .tc main_v59) = dinvOf (idxD (m ((c : Thread nD τ).loc main_arg1))) :=
  weights3 (W9 m ρ c) _ _ _ (deg3_pos (W8 m ρ c) _ (dst_at8 m ρ c)) (deg3_rsqrt (W8 m ρ c) _ (dst_at8 m ρ c)) (zero3 (W8 m ρ c))

theorem mixed2 : W11 m ρ c (Proc.devRef .tc main_v87) = mixK128 (m ((c : Thread nD τ).loc main_arg1)) (W8 m ρ c (Proc.devRef .tc main_v48)) :=
  mix3 (W10 m ρ c) _ _ _ _ (idxS_at10 m ρ c) (idxD_at10 m ρ c) (dinv_at10 m ρ c) (feat2_10to8 m ρ c)

theorem bias2_row : W11 m ρ c (Proc.devRef .tc main_v88) = biasRow128 (m ((c : Thread nD τ).loc main_arg5)) :=
  row3 (W10 m ρ c) _ (x5_at10 m ρ c)

/-! ## Region 3: the second bias -/

theorem layer2 : W12 m ρ c (Proc.devRef .tc main_v89) = Cert.Gcn.addRow (W11 m ρ c (Proc.devRef .tc main_v87)) (W11 m ρ c (Proc.devRef .tc main_v88)) :=
  (W12_arr m ρ c 2).trans (Cert.KernelIdeal.Bias3.final (V11 m ρ) c)

/-! ## Region 4: the head -/

theorem bias3_row : W13 m ρ c (Proc.devRef .tc main_v90) = biasRow128 (m ((c : Thread nD τ).loc main_arg7)) := by
  dsimp only [W13, hostOps4]
  after_results
  rw [x7_at12 m ρ c]
  rfl

theorem head : W14 m ρ c (Proc.devRef .tc main_v91) = Cert.Gcn.affine (W12 m ρ c (Proc.devRef .tc main_v89)) (m ((c : Thread nD τ).loc main_arg6)) (biasRow128 (m ((c : Thread nD τ).loc main_arg7))) := by
  refine (W14_arr m ρ c 3).trans ((Cert.KernelIdeal.Dense4.final (V13 m ρ) c).trans ?_)
  show Cert.Gcn.affine (W13 m ρ c (Proc.devRef .tc main_v89)) (W13 m ρ c (Proc.devRef .tc main_arg6)) (W13 m ρ c (Proc.devRef .tc main_v90)) = _
  rw [layer2_13to12 m ρ c, x6_at13 m ρ c, bias3_row m ρ c]

/-! ## The whole walk -/

/-- The result buffer at the last boundary is `expected` of the arguments. -/
theorem result : W14 m ρ c (Proc.devRef .tc main_v91) = expected m c := by
  rw [head m ρ c, layer2 m ρ c, mixed2 m ρ c, bias2_row m ρ c, product2 m ρ c, clipped m ρ c, mixed1 m ρ c,
    bias1_row m ρ c, product1 m ρ c]
  rfl

end Cert.KernelIdeal.Walk

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.RefStages.lean ====
/-
  The reference, cut at the points where the kernel hands an array from the host to a block-wise kernel and back.

  The reference is one straight line of host operations.  Two stretches of it, the mixing of node features along the
  graph's edges (degrees, their inverse square roots, the row gather, the scaling, the scatter-add), read the feature
  matrix in exactly one place, the row gather; each is stated here as ONE function of the edge list and the feature
  matrix (`mix256`, `mix128`) and is never opened: the kernel's program applies the same operations.  Between those
  stretches stand the dense steps, and each of them is the function of Spec.lean that the kernel computes block by
  block:
  • a product of the host with no bias is `affine` with a bias row that is zero (x + 0 = x on the extended reals,
    at the infinities too);
  • a bias vector set as one row and spread down the rows, then added, is `addRow` of any row holding that vector;
  • followed by the maximum with a zero spread over the array, `reluAddRow`;
  • a product followed by such a bias, `affine` with that row.
-/
import proofs.«160874_j25048249270385_1_alg».proof.Proof.ReadPatched
import proofs.«160874_j25048249270385_1_alg».proof.Proof.LibPlainDot
import proofs.«160874_j25048249270385_1_alg».proof.Proof.LibBroadcastInDim
import proofs.«160874_j25048249270385_1_alg».proof.Proof.Spec
import Idealize.ShloMosaic.Lib.Pipeline.Value
import Idealize.ShloMosaic.Lib.ValueIdx

noncomputable section

namespace Cert.ReferenceIdeal.Stages

open Cert.ReferenceIdeal Cert.ReferenceIdeal.Gen Cert.ReferenceIdeal.Read
open Idealize.ShloMosaic Idealize.ShloMosaic.TcCoe Idealize.ShloMosaic.ValueIdx Idealize.SL.Sem

/-! ## The mixing along the edges, as a function of the edge list and the features -/

/-- The first layer's mixing: 256 features per node. -/
def mix256 (e : IVec S2x800000 32) (h : FVec Ideal S50000x256 .f32) : FVec Ideal S50000x256 .f32 :=
  Host.scatterAdd (F := Ideal) (φ := .f32) scatter_S50000x256_S850000x1_S850000x256_1_0_0_1
    (val_main_v41 (F := Ideal)) (val_main_v42 (F := Ideal) e)
    (mulf (F := Ideal) (φ := .f32)
      (Host.gather gather_S50000x256_S850000x1_S850000x256_1_0_n_n_0_1_1256 h (val_main_v36 (F := Ideal) e))
      (val_main_v39 (F := Ideal) e))

/-- The second layer's mixing: 128 features per node. -/
def mix128 (e : IVec S2x800000 32) (h : FVec Ideal S50000x128 .f32) : FVec Ideal S50000x128 .f32 :=
  Host.scatterAdd (F := Ideal) (φ := .f32) scatter_S50000x128_S850000x1_S850000x128_1_0_0_1
    (val_main_v85 (F := Ideal)) (val_main_v86 (F := Ideal) e)
    (mulf (F := Ideal) (φ := .f32)
      (Host.gather gather_S50000x128_S850000x1_S850000x128_1_0_n_n_0_1_1128 h (val_main_v80 (F := Ideal) e))
      (val_main_v83 (F := Ideal) e))

/-- The first mixing of the reference is `mix256` of the edge list and the first product. -/
theorem mixed1_eq (x0 : FVec Ideal S50000x128 .f32) (x1 : IVec S2x800000 32)
    (x2 : FVec Ideal S128x256 .f32) :
    val_main_v43 (F := Ideal) x0 x1 x2 = mix256 x1 (val_main_v4 (F := Ideal) x0 x2) := rfl

/-- The second mixing of the reference is `mix128` of the edge list and the second product. -/
theorem mixed2_eq (x0 : FVec Ideal S50000x128 .f32) (x1 : IVec S2x800000 32)
    (x2 : FVec Ideal S128x256 .f32) (x3 : FVec Ideal S256 .f32)
    (x4 : FVec Ideal S256x128 .f32) :
    val_main_v87 (F := Ideal) x0 x1 x2 x3 x4 = mix128 x1 (val_main_v48 (F := Ideal) x0 x1 x2 x3 x4) := rfl

/-! ## The dense steps -/

/-- A product with no bias is `affine` with a zero bias row. -/
theorem product1_eq (x0 : FVec Ideal S50000x128 .f32) (x2 : FVec Ideal S128x256 .f32)
    (z : FVec Ideal ⟨2, ![1, 256]⟩ .f32) (hz : ∀ g : Fin 256, z (ix2 (0 : Fin 1) g) = 0) :
    Cert.Gcn.affine x0 x2 z = val_main_v4 (F := Ideal) x0 x2 := by
  funext i
  obtain ⟨p, g, rfl⟩ : ∃ (p : Fin 50000) (g : Fin 256), i = ix2 p g := ⟨i 0, i 1, eq_ix2 i⟩
  rw [Cert.Gcn.affine_apply, hz, add_zero]
  unfold val_main_v4
  exact (Cert.PlainDot.hostDot_apply dot_S50000x128_S128x256_S50000x256_1_0_0_1_n_n rfl x0 x2 p g).symm

/-- The second product, of any features, is `affine` with a zero bias row. -/
theorem product2_eq (a : FVec Ideal S50000x256 .f32) (x4 : FVec Ideal S256x128 .f32)
    (z : FVec Ideal ⟨2, ![1, 128]⟩ .f32) (hz : ∀ g : Fin 128, z (ix2 (0 : Fin 1) g) = 0) :
    Cert.Gcn.affine a x4 z = Host.dotGeneral (F := Ideal) (φ₁ := .f32) (φ₂ := .f32) dot_S50000x256_S256x128_S50000x128_1_0_0_1_n_n none a x4 := by
  funext i
  obtain ⟨p, g, rfl⟩ : ∃ (p : Fin 50000) (g : Fin 128), i = ix2 p g := ⟨i 0, i 1, eq_ix2 i⟩
  rw [Cert.Gcn.affine_apply, hz, add_zero]
  exact (Cert.PlainDot.hostDot_apply dot_S50000x256_S256x128_S50000x128_1_0_0_1_n_n rfl a x4 p g).symm

/-- The first layer's bias and clipping: the bias vector set as a row and spread down the rows, added, and the maximum
    with a zero spread over the array, is `reluAddRow` with any row holding the bias vector. -/
theorem biasRelu_eq (a : FVec Ideal S50000x256 .f32) (x3 : FVec Ideal S256 .f32)
    (r : FVec Ideal ⟨2, ![1, 256]⟩ .f32) (hr : ∀ g : Fin 256, r (ix2 (0 : Fin 1) g) = x3 (ix1 g)) :
    Cert.Gcn.reluAddRow a r = maximumf (F := Ideal) (φ := .f32) (addf (F := Ideal) (φ := .f32) a (val_main_v45 (F := Ideal) x3)) (val_main_call1_v0 (F := Ideal)) := by
  funext i
  obtain ⟨p, g, rfl⟩ : ∃ (p : Fin 50000) (g : Fin 256), i = ix2 p g := ⟨i 0, i 1, eq_ix2 i⟩
  rw [Cert.Gcn.reluAddRow_apply, hr, maximumf_apply, addf_apply]
  unfold val_main_v45 val_main_v44
  rw [Cert.Lib.InDim.row_spread, Cert.Lib.InDim.vec_as_row]
  rfl

/-- The second layer's bias: `addRow` with any row holding the bias vector. -/
theorem bias2_eq (a : FVec Ideal S50000x128 .f32) (x5 : FVec Ideal S128 .f32)
    (r : FVec Ideal ⟨2, ![1, 128]⟩ .f32) (hr : ∀ g : Fin 128, r (ix2 (0 : Fin 1) g) = x5 (ix1 g)) :
    Cert.Gcn.addRow a r = addf (F := Ideal) (φ := .f32) a (val_main_v89 (F := Ideal) x5) := by
  funext i
  obtain ⟨p, g, rfl⟩ : ∃ (p : Fin 50000) (g : Fin 128), i = ix2 p g := ⟨i 0, i 1, eq_ix2 i⟩
  rw [Cert.Gcn.addRow_apply, hr, addf_apply]
  unfold val_main_v89 val_main_v88
  rw [Cert.Lib.InDim.row_spread, Cert.Lib.InDim.vec_as_row]

/-- The head: a product followed by its bias is `affine` with any row holding the bias vector. -/
theorem head_eq (a : FVec Ideal S50000x128 .f32) (x6 : FVec Ideal S128x128 .f32)
    (x7 : FVec Ideal S128 .f32)
    (r : FVec Ideal ⟨2, ![1, 128]⟩ .f32) (hr : ∀ g : Fin 128, r (ix2 (0 : Fin 1) g) = x7 (ix1 g)) :
    Cert.Gcn.affine a x6 r
      = addf (F := Ideal) (φ := .f32) (Host.dotGeneral (F := Ideal) (φ₁ := .f32) (φ₂ := .f32) dot_S50000x128_S128x128_S50000x128_1_0_0_1_n_n none a x6) (val_main_v93 (F := Ideal) x7) := by
  funext i
  obtain ⟨p, g, rfl⟩ : ∃ (p : Fin 50000) (g : Fin 128), i = ix2 p g := ⟨i 0, i 1, eq_ix2 i⟩
  rw [Cert.Gcn.affine_apply, hr, addf_apply, Cert.PlainDot.hostDot_apply dot_S50000x128_S128x128_S50000x128_1_0_0_1_n_n rfl a x6 p g]
  unfold val_main_v93 val_main_v92
  rw [Cert.Lib.InDim.row_spread, Cert.Lib.InDim.vec_as_row]

/-! ## The whole reference, stage by stage -/

variable (x0 : FVec Ideal S50000x128 .f32) (x1 : IVec S2x800000 32)
  (x2 : FVec Ideal S128x256 .f32) (x3 : FVec Ideal S256 .f32)
  (x4 : FVec Ideal S256x128 .f32) (x5 : FVec Ideal S128 .f32)
  (x6 : FVec Ideal S128x128 .f32) (x7 : FVec Ideal S128 .f32)

/-- The reference's result, as the dense steps of Spec.lean around the two mixings, for any zero rows and any rows
    holding the three bias vectors. -/
theorem result_eq (z1 : FVec Ideal ⟨2, ![1, 256]⟩ .f32) (hz1 : ∀ g : Fin 256, z1 (ix2 (0 : Fin 1) g) = 0)
    (z2 : FVec Ideal ⟨2, ![1, 128]⟩ .f32) (hz2 : ∀ g : Fin 128, z2 (ix2 (0 : Fin 1) g) = 0)
    (r1 : FVec Ideal ⟨2, ![1, 256]⟩ .f32) (hr1 : ∀ g : Fin 256, r1 (ix2 (0 : Fin 1) g) = x3 (ix1 g))
    (r2 : FVec Ideal ⟨2, ![1, 128]⟩ .f32) (hr2 : ∀ g : Fin 128, r2 (ix2 (0 : Fin 1) g) = x5 (ix1 g))
    (r3 : FVec Ideal ⟨2, ![1, 128]⟩ .f32) (hr3 : ∀ g : Fin 128, r3 (ix2 (0 : Fin 1) g) = x7 (ix1 g)) :
    Cert.Gcn.affine
        (Cert.Gcn.addRow (mix128 x1 (Cert.Gcn.affine (Cert.Gcn.reluAddRow (mix256 x1 (Cert.Gcn.affine x0 x2 z1)) r1) x4 z2)) r2)
        x6 r3
      = val_main_v94 (F := Ideal) x0 x1 x2 x3 x4 x5 x6 x7 := by
  rw [product1_eq x0 x2 z1 hz1, ← mixed1_eq, biasRelu_eq _ x3 r1 hr1, product2_eq _ x4 z2 hz2]
  rw [show Host.dotGeneral (F := Ideal) (φ₁ := .f32) (φ₂ := .f32) dot_S50000x256_S256x128_S50000x128_1_0_0_1_n_n none
        (maximumf (F := Ideal) (φ := .f32) (addf (F := Ideal) (φ := .f32) (val_main_v43 (F := Ideal) x0 x1 x2) (val_main_v45 (F := Ideal) x3)) (val_main_call1_v0 (F := Ideal))) x4
      = val_main_v48 (F := Ideal) x0 x1 x2 x3 x4 from rfl]
  rw [← mixed2_eq, bias2_eq _ x5 r2 hr2, head_eq _ x6 x7 r3 hr3]
  rfl

end Cert.ReferenceIdeal.Stages

end
-- ==== Proof.MixBridge.lean ====
/-
  The mixing along the edges is the same function in both programs.

  The kernel's program and the reference apply the same host operations to the same edge list; they are printed
  separately, each over its own copies of the shapes, the dimension records and the side conditions.  The pieces of
  Carry.lean (the kernel's spelling) are compared here with the reference's stages of the same role, smallest first:
  the index vectors with the loops appended, the nodes' weights, the edges' coefficients, and then the two mixings as
  functions of the edge list and of the features.  Every comparison is between two small terms built from pieces
  already identified.
-/
import proofs.«160874_j25048249270385_1_alg».proof.Proof.Carry
import proofs.«160874_j25048249270385_1_alg».proof.Proof.RefStages

noncomputable section

namespace Cert.Bridge

open Cert.KernelIdeal.Walk Cert.ReferenceIdeal.Read
open Idealize.ShloMosaic Idealize.ShloMosaic.TcCoe

variable (e : IVec Cert.KernelIdeal.S2x800000 32)

/-! ## The first mixing's pieces -/

theorem idxS_eq1 : idxS e = val_main_v6 (F := Ideal) e := rfl
theorem idxD_eq1 : idxD e = val_main_v7 (F := Ideal) e := rfl
theorem deg_eq1 : degOf (idxD e) = val_main_v11 (F := Ideal) e := rfl
theorem dinv_eq1 : dinvOf (idxD e) = val_main_v15 (F := Ideal) e := rfl
theorem coef_eq1 : coefOf (idxS e) (idxD e) (dinvOf (idxD e)) = val_main_v30 (F := Ideal) e := rfl

/-- The first layer's mixing. -/
theorem mix256_eq (h : FVec Ideal Cert.KernelIdeal.S50000x256 .f32) :
    mixK256 e h = Cert.ReferenceIdeal.Stages.mix256 e h := rfl

/-! ## The second mixing's pieces -/

theorem idxS_eq2 : idxS e = val_main_v50 (F := Ideal) e := rfl
theorem idxD_eq2 : idxD e = val_main_v51 (F := Ideal) e := rfl
theorem deg_eq2 : degOf (idxD e) = val_main_v55 (F := Ideal) e := rfl
theorem dinv_eq2 : dinvOf (idxD e) = val_main_v59 (F := Ideal) e := rfl
theorem coef_eq2 : coefOf (idxS e) (idxD e) (dinvOf (idxD e)) = val_main_v74 (F := Ideal) e := rfl

/-- The second layer's mixing. -/
theorem mix128_eq (h : FVec Ideal Cert.KernelIdeal.S50000x128 .f32) :
    mixK128 e h = Cert.ReferenceIdeal.Stages.mix128 e h := rfl

end Cert.Bridge

end
-- ==== Proof.lean ====
/-
  A two-layer graph convolution with a linear head: the block-wise kernel against its one-line reference, over the
  extended reals.

  Both programs multiply the node features by a weight matrix, mix the rows along the graph's edges (the same host
  operations on the same edge list in both), add a bias and clip below at zero; do the same once more without the
  clipping; and finish with a product and a bias.  The kernel computes the five dense steps in blocks of 2000 nodes,
  each product into a zero accumulator with the bias held as a one-row matrix (a zero row where the layer adds its
  bias only after the mixing); the reference computes each product over all 50000 nodes at once and spreads each bias
  by two broadcasts.  At the ideal instance the narrowing of the factors to bf16 is the identity, a product into a zero
  accumulator is the host's product, and x + 0 = x on every extended real, so no finiteness of the inputs is used.

  The frames of the two kernel programs are the generated ones; the reference's frame is its run with the result
  dropped.  The idealization rewrote nothing, so what it preserves is trivially true.  For the values: the kernel's
  run ends with its result buffer at the last segment boundary's contents (KernelRun), those contents are the dense
  steps around the two mixings applied to the arguments (KernelValue), the mixing is the same function in both
  programs (MixBridge), and the reference's result is the same expression (RefStages), from memories that agree on the
  arguments.
-/
import proofs.«160874_j25048249270385_1_alg».proof.Defs
import proofs.«160874_j25048249270385_1_alg».proof.Proof.Gen.Kernel
import proofs.«160874_j25048249270385_1_alg».proof.Proof.Gen.Kernel.Frame
import proofs.«160874_j25048249270385_1_alg».proof.Proof.Gen.KernelIdeal
import proofs.«160874_j25048249270385_1_alg».proof.Proof.Gen.KernelIdeal.Frame
import proofs.«160874_j25048249270385_1_alg».proof.Proof.Gen.ReferenceIdeal
import proofs.«160874_j25048249270385_1_alg».proof.Proof.Gen.Pre_finite_inputs
import proofs.«160874_j25048249270385_1_alg».proof.Proof.KernelRun
import proofs.«160874_j25048249270385_1_alg».proof.Proof.KernelValue
import proofs.«160874_j25048249270385_1_alg».proof.Proof.RefStages
import proofs.«160874_j25048249270385_1_alg».proof.Proof.MixBridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

open Cert.KernelIdeal.Walk in
/-- Both programs end with the dense steps around the two mixings, applied to the arguments. -/
theorem algebraic : Cert.algebraic_KernelIdeal_ReferenceIdeal := by
  intro m ρ m' ρ' _ hagree
  refine ⟨fun c => Cert.KernelIdeal.Walk.expected m c, ?_, ?_⟩
  · exact (θ_run Cert.KernelIdeal.defs _ _).mono
      (fun r h c => ⟨(h c).1.trans (Cert.KernelIdeal.Walk.result m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v94_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    show _ = Cert.KernelIdeal.Walk.expected m c
    unfold Cert.KernelIdeal.Walk.expected
    rw [Cert.Bridge.mix256_eq, Cert.Bridge.mix128_eq]
    exact (Cert.ReferenceIdeal.Stages.result_eq _ _ _ _ _ _ _ _
      zeroRow256 zeroRow256_apply zeroRow128 zeroRow128_apply
      (biasRow256 _) (biasRow256_apply _) (biasRow128 _) (biasRow128_apply _) (biasRow128 _) (biasRow128_apply _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
